-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v179) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S50000x128 .f32) (main_arg3 : IVec S2x800000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S10000x128 : Shape := ⟨2, ![10000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 228
  | .vmem => 40
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x128, .f32⟩
  | 5 => ⟨S128, .f32⟩
  | 6 => ⟨S128x128, .f32⟩
  | 7 => ⟨S128, .f32⟩
  | 8 => ⟨S50000x128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x128, .f32⟩
  | 54 => ⟨S850000x1, .f32⟩
  | 55 => ⟨S850000x128, .f32⟩
  | 56 => ⟨S850000x128, .f32⟩
  | 57 => ⟨S_, .f32⟩
  | 58 => ⟨S50000x128, .f32⟩
  | 59 => ⟨S850000x1, .i32⟩
  | 60 => ⟨S50000x128, .f32⟩
  | 61 => ⟨S1x128, .f32⟩
  | 62 => ⟨S50000x128, .f32⟩
  | 63 => ⟨S50000x128, .f32⟩
  | 64 => ⟨S50000, .i32⟩
  | 65 => ⟨S1x800000, .i32⟩
  | 66 => ⟨S800000, .i32⟩
  | 67 => ⟨S850000, .i32⟩
  | 68 => ⟨S1x800000, .i32⟩
  | 69 => ⟨S800000, .i32⟩
  | 70 => ⟨S850000, .i32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S50000, .i32⟩
  | 120 => ⟨S1x800000, .i32⟩
  | 121 => ⟨S800000, .i32⟩
  | 122 => ⟨S850000, .i32⟩
  | 123 => ⟨S1x800000, .i32⟩
  | 124 => ⟨S800000, .i32⟩
  | 125 => ⟨S850000, .i32⟩
  | 126 => ⟨S_, .f32⟩
  | 127 => ⟨S850000, .f32⟩
  | _ => ⟨S50000x128, .f32⟩

abbrev hbmTy0_1 (i : Nat) : BufTy := match i % 128 with
  | 0 => ⟨S_, .f32⟩
  | 1 => ⟨S50000, .f32⟩
  | 2 => ⟨S850000x1, .i32⟩
  | 3 => ⟨S50000, .f32⟩
  | 4 => ⟨S_, .f32⟩
  | 5 => ⟨S50000, .f32⟩
  | 6 => ⟨S50000, .f32⟩
  | 7 => ⟨S50000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x128, .f32⟩
  | 36 => ⟨S850000x1, .f32⟩
  | 37 => ⟨S850000x128, .f32⟩
  | 38 => ⟨S850000x128, .f32⟩
  | 39 => ⟨S_, .f32⟩
  | 40 => ⟨S50000x128, .f32⟩
  | 41 => ⟨S850000x1, .i32⟩
  | 42 => ⟨S50000x128, .f32⟩
  | 43 => ⟨S1x128, .f32⟩
  | 44 => ⟨S50000x128, .f32⟩
  | 45 => ⟨S50000x128, .f32⟩
  | 46 => ⟨S50000, .i32⟩
  | 47 => ⟨S1x800000, .i32⟩
  | 48 => ⟨S800000, .i32⟩
  | 49 => ⟨S850000, .i32⟩
  | 50 => ⟨S1x800000, .i32⟩
  | 51 => ⟨S800000, .i32⟩
  | 52 => ⟨S850000, .i32⟩
  | 53 => ⟨S_, .f32⟩
  | 54 => ⟨S850000, .f32⟩
  | 55 => ⟨S_, .f32⟩
  | 56 => ⟨S50000, .f32⟩
  | 57 => ⟨S850000x1, .i32⟩
  | 58 => ⟨S50000, .f32⟩
  | 59 => ⟨S_, .f32⟩
  | 60 => ⟨S50000, .f32⟩
  | 61 => ⟨S50000, .f32⟩
  | 62 => ⟨S50000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_20 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_21 : Ref sig .tc := ⟨.hbm, 136, rfl⟩
abbrev main_v105 : Ref sig .tc := ⟨.hbm, 137, rfl⟩
abbrev main_v106 : Ref sig .tc := ⟨.hbm, 138, rfl⟩
abbrev main_c_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_23 : Ref sig .tc := ⟨.hbm, 145, rfl⟩
abbrev main_v112 : Ref sig .tc := ⟨.hbm, 146, rfl⟩
abbrev main_v113 : Ref sig .tc := ⟨.hbm, 147, rfl⟩
abbrev main_c_24 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_25 : Ref sig .tc := ⟨.hbm, 155, rfl⟩
abbrev main_v120 : Ref sig .tc := ⟨.hbm, 156, rfl⟩
abbrev main_v121 : Ref sig .tc := ⟨.hbm, 157, rfl⟩
abbrev main_c_26 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_27 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_28 : Ref sig .tc := ⟨.hbm, 181, rfl⟩
abbrev main_v143 : Ref sig .tc := ⟨.hbm, 182, rfl⟩
abbrev main_cst_29 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_30 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_c_31 : Ref sig .tc := ⟨.hbm, 191, rfl⟩
abbrev main_v150 : Ref sig .tc := ⟨.hbm, 192, rfl⟩
abbrev main_v151 : Ref sig .tc := ⟨.hbm, 193, rfl⟩
abbrev main_c_32 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_c_33 : Ref sig .tc := ⟨.hbm, 200, rfl⟩
abbrev main_v157 : Ref sig .tc := ⟨.hbm, 201, rfl⟩
abbrev main_v158 : Ref sig .tc := ⟨.hbm, 202, rfl⟩
abbrev main_c_34 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_c_35 : Ref sig .tc := ⟨.hbm, 210, rfl⟩
abbrev main_v165 : Ref sig .tc := ⟨.hbm, 211, rfl⟩
abbrev main_v166 : Ref sig .tc := ⟨.hbm, 212, rfl⟩
abbrev main_c_36 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_37 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  dot_S10000x128_S128x128_S10000x128_1_0_0_1_n_n_wf : DotDims.WF S10000x128 S128x128 S10000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S50000x128.size a
  hwx7_2 : ∀ i : grid7.Coords, EltTy.bits .f32 = 32 ∨ (Rect.block (s := S50000x128) S10000x128.size (cc7_transform_2 i) (hinb7_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg2) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v132) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v133) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v134) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v134) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v135) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v177) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v178) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v179) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x128, .f32⟩
  | 5 => ⟨S128, .f32⟩
  | 6 => ⟨S128x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S50000x128, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x128, .f32⟩
  | 54 => ⟨S850000x1, .f32⟩
  | 55 => ⟨S850000x128, .f32⟩
  | 56 => ⟨S850000x128, .f32⟩
  | 57 => ⟨S_, .f32⟩
  | 58 => ⟨S50000x128, .f32⟩
  | 59 => ⟨S850000x1, .i32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000, .i32⟩
  | 68 => ⟨S1x800000, .i32⟩
  | 69 => ⟨S800000, .i32⟩
  | 70 => ⟨S850000, .i32⟩
  | 71 => ⟨S1x800000, .i32⟩
  | 72 => ⟨S800000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S50000x128, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x1, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S50000, .i32⟩
  | 124 => ⟨S1x800000, .i32⟩
  | 125 => ⟨S800000, .i32⟩
  | 126 => ⟨S850000, .i32⟩
  | 127 => ⟨S1x800000, .i32⟩
  | _ => ⟨S50000x128, .f32⟩

abbrev hbmTy0_1 (i : Nat) : BufTy := match i % 128 with
  | 0 => ⟨S800000, .i32⟩
  | 1 => ⟨S850000, .i32⟩
  | 2 => ⟨S_, .f32⟩
  | 3 => ⟨S850000, .f32⟩
  | 4 => ⟨S_, .f32⟩
  | 5 => ⟨S50000, .f32⟩
  | 6 => ⟨S850000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S850000, .f32⟩
  | 31 => ⟨S50000x128, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000x128, .f32⟩
  | 41 => ⟨S850000x1, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000, .i32⟩
  | 55 => ⟨S1x800000, .i32⟩
  | 56 => ⟨S800000, .i32⟩
  | 57 => ⟨S850000, .i32⟩
  | 58 => ⟨S1x800000, .i32⟩
  | 59 => ⟨S800000, .i32⟩
  | 60 => ⟨S850000, .i32⟩
  | 61 => ⟨S_, .f32⟩
  | 62 => ⟨S850000, .f32⟩
  | 63 => ⟨S_, .f32⟩
  | 64 => ⟨S50000, .f32⟩
  | 65 => ⟨S850000x1, .i32⟩
  | 66 => ⟨S50000, .f32⟩
  | 67 => ⟨S_, .f32⟩
  | 68 => ⟨S50000, .f32⟩
  | 69 => ⟨S50000, .f32⟩
  | 70 => ⟨S50000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S50000x128, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x128, .f32⟩
  | 100 => ⟨S850000x1, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_18 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_21 : Ref sig .tc := ⟨.hbm, 140, rfl⟩
abbrev main_v107 : Ref sig .tc := ⟨.hbm, 141, rfl⟩
abbrev main_v108 : Ref sig .tc := ⟨.hbm, 142, rfl⟩
abbrev main_c_22 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_23 : Ref sig .tc := ⟨.hbm, 149, rfl⟩
abbrev main_v114 : Ref sig .tc := ⟨.hbm, 150, rfl⟩
abbrev main_v115 : Ref sig .tc := ⟨.hbm, 151, rfl⟩
abbrev main_c_24 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_25 : Ref sig .tc := ⟨.hbm, 160, rfl⟩
abbrev main_v123 : Ref sig .tc := ⟨.hbm, 161, rfl⟩
abbrev main_v124 : Ref sig .tc := ⟨.hbm, 162, rfl⟩
abbrev main_c_26 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_27 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_call1_cst : Ref sig .tc := ⟨.hbm, 179, rfl⟩
abbrev main_call1_v0 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_28 : Ref sig .tc := ⟨.hbm, 189, rfl⟩
abbrev main_v147 : Ref sig .tc := ⟨.hbm, 190, rfl⟩
abbrev main_cst_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_30 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_c_31 : Ref sig .tc := ⟨.hbm, 199, rfl⟩
abbrev main_v154 : Ref sig .tc := ⟨.hbm, 200, rfl⟩
abbrev main_v155 : Ref sig .tc := ⟨.hbm, 201, rfl⟩
abbrev main_c_32 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_c_33 : Ref sig .tc := ⟨.hbm, 208, rfl⟩
abbrev main_v161 : Ref sig .tc := ⟨.hbm, 209, rfl⟩
abbrev main_v162 : Ref sig .tc := ⟨.hbm, 210, rfl⟩
abbrev main_c_34 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_c_35 : Ref sig .tc := ⟨.hbm, 219, rfl⟩
abbrev main_v170 : Ref sig .tc := ⟨.hbm, 220, rfl⟩
abbrev main_v171 : Ref sig .tc := ⟨.hbm, 221, rfl⟩
abbrev main_c_36 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_37 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  A two-layer graph convolution as one function of its arguments.

  A graph on 50000 nodes is given by 800000 directed edges (row 0 of the edge array holds the sources, row 1 the
  destinations), to which one self-loop per node is appended.  A node's degree is the number of edge ends arriving at
  it, at least 1; an edge weighs 1/sqrt(degree of its source) · 1/sqrt(degree of its destination).  One aggregation
  sends every node's feature row along each edge, scaled by the edge's weight, and sums what arrives at each node.
  One layer multiplies the features by a weight matrix, aggregates, and adds a bias row; the first layer then clips
  at zero.  The network is two layers.  Indices that are negative wrap around by the node count, as array indexing
  does.  Everything here is spelt with the host operations, so the same terms are what a host program computes.
-/
import proofs.«132256_j23630910063292_1_alg».proof.ReferenceIdeal

noncomputable section

namespace Cert.Spec

open Idealize.ShloMosaic Cert.ReferenceIdeal

variable {F : FTy → Type} [FloatOps F] [Facts₀]

open Facts₀

/-- Node features: one row of 128 numbers per node. -/
abbrev Feat (F : FTy → Type) : Type := (⟨S50000x128, .f32⟩ : BufTy).Contents (Elt F)
/-- A weight matrix. -/
abbrev Wt (F : FTy → Type) : Type := (⟨S128x128, .f32⟩ : BufTy).Contents (Elt F)
/-- A bias vector. -/
abbrev Bias (F : FTy → Type) : Type := (⟨S128, .f32⟩ : BufTy).Contents (Elt F)
/-- A bias laid out as one row. -/
abbrev Row (F : FTy → Type) : Type := (⟨S1x128, .f32⟩ : BufTy).Contents (Elt F)
/-- The edge array: sources in row 0, destinations in row 1. -/
abbrev Edges (F : FTy → Type) : Type := (⟨S2x800000, .i32⟩ : BufTy).Contents (Elt F)
/-- One end of every edge, self-loops appended. -/
abbrev Ends (F : FTy → Type) : Type := (⟨S850000, .i32⟩ : BufTy).Contents (Elt F)

/-- The source of every edge, then every node as the source of its self-loop. -/
def srcEnds (ei : Edges F) : Ends F :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination of every edge, then every node as the destination of its self-loop. -/
def dstEnds (ei : Edges F) : Ends F :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- Node indices made ready for a lookup: a negative index has the node count added; one index per row. -/
def wrapped (e : Ends F) : (⟨S850000x1, .i32⟩ : BufTy).Contents (Elt F) :=
  broadcastInDim S850000x1 ![0] bcast_S850000_S850000x1_0 (select (cmpi .slt e (broadcastInDim S850000 ![] bcast_S_S850000 (constantI S_ 32 0#32))) (addi e (broadcastInDim S850000 ![] bcast_S_S850000 (constantI S_ 32 50000#32))) e)

/-- 1/sqrt(max(degree, 1)) per node, the degree counted as the number of edge ends arriving at the node. -/
def invSqrtDeg (ei : Edges F) : (⟨S50000, .f32⟩ : BufTy).Contents (Elt F) :=
  Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (dstEnds ei)) (broadcastInDim S850000 ![] bcast_S_S850000 (constant S_ .f32 0x3F800000#32))) (broadcastInDim S50000 ![] bcast_S_S50000 (constant S_ .f32 0x3F800000#32)))

/-- An edge's weight: the product of the two factors at its source and at its destination. -/
def edgeWeight (ei : Edges F) : (⟨S850000, .f32⟩ : BufTy).Contents (Elt F) :=
  mulf (Host.gather gather_S50000_S850000x1_S850000_n_0_n_n_0_1_1 (invSqrtDeg ei) (wrapped (srcEnds ei))) (Host.gather gather_S50000_S850000x1_S850000_n_0_n_n_0_1_1 (invSqrtDeg ei) (wrapped (dstEnds ei)))

/-- One aggregation: each node receives the weighted feature rows of the sources of the edges arriving at it. -/
def aggregate (h : Feat F) (ei : Edges F) : Feat F :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dstEnds ei)) (mulf (Host.gather gather_S50000x128_S850000x1_S850000x128_1_0_n_n_0_1_1128 h (wrapped (srcEnds ei))) (broadcastInDim S850000x128 ![0, 1] bcast_S850000x1_S850000x128_0_1 (broadcastInDim S850000x1 ![0] bcast_S850000_S850000x1_0 (edgeWeight ei))))

/-- The features times a weight matrix. -/
def linFn (x : Feat F) (w : Wt F) : Feat F :=
  Host.dotGeneral dot_S50000x128_S128x128_S50000x128_1_0_0_1_n_n none x w

/-- A bias vector laid out as one row. -/
def rowOf (b : Bias F) : Row F := broadcastInDim S1x128 ![1] bcast_S128_S1x128_1 b

/-- A bias row added to every node's row. -/
def biasFn (a : Feat F) (r : Row F) : Feat F := addf a (broadcastInDim S50000x128 ![0, 1] bcast_S1x128_S50000x128_0_1 r)

/-- A bias row added to every node's row, then clipped at zero. -/
def biasReluFn (a : Feat F) (r : Row F) : Feat F :=
  maximumf (biasFn a r) (broadcastInDim S50000x128 ![] bcast_S_S50000x128 (constant S_ .f32 0x00000000#32))

/-- The two layers: clip(aggregate(x·W0) + b0), then aggregate(·W1) + b1. -/
def net (x : Feat F) (ei : Edges F) (W0 : Wt F) (b0 : Bias F) (W1 : Wt F) (b1 : Bias F) : Feat F :=
  biasFn (aggregate (linFn (biasReluFn (aggregate (linFn x W0) ei) (rowOf b0)) W1) ei) (rowOf b1)

end Cert.Spec

end
-- ==== Proof.KernelRun.lean ====
/-
  The kernel program's run, with its two result buffers named.

  Every weakly fair execution of the kernel program terminates; at the end each buffer of the TensorCore holds what
  the fold of buffer contents over the program's segments leaves in it (`W12`).  The statement below reads that off
  for the two buffers the program returns and, through the fold's read-back lemmas, for the eight argument buffers,
  which are as launched.  What the two results ARE, as functions of the arguments, is the business of the modules
  that evaluate the fold; here they are only named.
-/
import proofs.«132256_j23630910063292_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option backward.isDefEq.respectTransparency.types false in
/-- From any memory with zero counters, every weakly fair execution of the kernel program terminates with the two
    returned buffers at the contents the fold over the segments gives them, and the eight arguments as launched. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_v179) = W12 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       h c _ (mem_uc main_v179 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«132256_j23630910063292_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.LibRowAsBroadcast.lean ====
/-
  A vector reshaped to one row is the vector broadcast to one row.

  A kernel's caller hands a length-n bias to the kernel as a [1, n] row by a reshape; a host program that adds the
  same bias to every row of an array first lays it along the second axis of a [1, n] row by a broadcast.  Both rows
  hold entry j of the vector at (0, j): they are the same array.
-/
import Idealize.ShloMosaic.Lib.ValueIdx
import Idealize.ShloMosaic.Lib.Pipeline.Value
import proofs.«132256_j23630910063292_1_alg».proof.Proof.LibRowView
import proofs.«132256_j23630910063292_1_alg».proof.Proof.LibHostRowOps

noncomputable section

namespace Cert.RowAsBroadcast

open Idealize.ShloMosaic Idealize.ShloMosaic.ValueIdx

variable {α : Type} {n : Nat}

/-- The reshape of a length-`n` vector to a `[1, n]` row is its broadcast along the row's second axis. -/
theorem row_eq (x : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ x hs = broadcastInDim ⟨2, ![1, n]⟩ ![1] hb x :=
  funext fun j => by
    obtain ⟨u, k, rfl⟩ : ∃ (u : Fin 1) (k : Fin n), j = ix2 u k := ⟨j 0, j 1, eq_ix2 j⟩
    rw [Cert.RowView.row_apply, Cert.HostRowOps.vecToRow_apply]

end Cert.RowAsBroadcast

end
-- ==== Proof.LinearRegions.lean ====
/-
  The four row-block matrix products, each as one whole-array function.

  A region multiplies a [50000, 128] array by a [128, 128] matrix 10000 rows at a time: at grid point t its first window
  holds rows 10000 t … 10000 t + 9999 of the array, its second window the whole matrix, and the body stores the product
  of the two blocks into the third window's block, which is written back to the same rows of the result array.  On the
  extended reals entry (p, q) of a block product is the sum over k of (block at (p, k)) · (matrix at (k, q)) — narrowing
  the operands to a shorter float format changes nothing there — and that is entry (10000 t + p, q) of the product of
  the whole arrays.  The five blocks tile the result array, so it ends holding the host's product of the two arrays.
-/
import proofs.«132256_j23630910063292_1_alg».proof.Proof.Gen.KernelIdeal.Frame
import proofs.«132256_j23630910063292_1_alg».proof.Proof.Spec
import proofs.«132256_j23630910063292_1_alg».proof.Proof.LibRowOps
import proofs.«132256_j23630910063292_1_alg».proof.Proof.LibHostRowOps
import Idealize.ShloMosaic.Lib.Pipeline.Value
import Idealize.ShloMosaic.PureOps.Ideal
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Regions

open Cert.KernelIdeal Cert.KernelIdeal.Gen

variable [Cert.ReferenceIdeal.Facts₀]
variable (V : (c : Dev nD) → (b : Ref sig .tc) → Buf (Elt Ideal) ((c : Thread nD τ).loc b))

/-- The zero offsets of a whole-block access. -/
theorem hzLin : (![0, 0] : Fin 2 → Nat) = fun _ => 0 := funext fun a => by fin_cases a <;> rfl

/-- A block product contracts the block's second axis with the matrix's first, no batch axis. -/
theorem plainK : Cert.RowOps.IsPlain dot_S10000x128_S128x128_S10000x128_1_0_0_1_n_n := ⟨rfl, rfl, rfl, rfl, rfl, rfl⟩

/-- So does the host's product of the whole arrays. -/
theorem plainR : Cert.RowOps.IsPlain Cert.ReferenceIdeal.dot_S50000x128_S128x128_S50000x128_1_0_0_1_n_n := ⟨rfl, rfl, rfl, rfl, rfl, rfl⟩

/-! ## Region 0: `main_arg0` times `main_arg4` into `main_v0` -/

/-- Entry (p, q) of the body's block product: the sum over the shared axis. -/
theorem lin_pay0 (x : Vec Ideal S10000x128 .f32) (w : Vec Ideal S128x128 .f32) (p : Fin 10000) (q : Fin 128) :
    k0_pay1 x w (ix2 p q) = ∑ k : Fin 128, x (ix2 p k) * w (ix2 k q) := by
  unfold k0_pay1
  exact Cert.RowOps.matmul_zero_apply plainK none _ _ p q

/-- The first window's block at point `t` is rows `10000 t …` of the array. -/
theorem iblk0_0_apply (c : Dev nD) (t : Fin cfg0.N) (y : S10000x128.Idx) (i : S50000x128.Idx)
    (h0 : (i 0).val = 10000 * t.val + (y 0).val) (h1 : (i 1).val = (y 1).val) :
    (iblk0 V c 0 t : Vec Ideal S10000x128 .f32) y = (V c main_arg0 : S50000x128.Idx → Elt Ideal .f32) i := by
  have hi : win0_0.index t 0 = t.val ∧ win0_0.index t 1 = 0 := by
    rcases fin_N0 t with rfl | rfl | rfl | rfl | rfl <;> decide
  unfold iblk0
  rw [View.read_apply]
  show V c main_arg0 _ = V c main_arg0 _
  congr 1
  funext a
  apply Fin.ext
  match a with
  | ⟨0, _⟩ => show win0_0.index t 0 * 10000 + 1 * (y 0).val = (i 0).val; rw [hi.1, h0]; omega
  | ⟨1, _⟩ => show win0_0.index t 1 * 128 + 1 * (y 1).val = (i 1).val; rw [hi.2, h1]; omega

/-- The second window's block is the whole matrix at every point. -/
theorem iblk0_1_apply (c : Dev nD) (t : Fin cfg0.N) (y : S128x128.Idx) :
    (iblk0 V c 1 t : Vec Ideal S128x128 .f32) y = (V c main_arg4 : S128x128.Idx → Elt Ideal .f32) y := by
  have hi : win0_1.index t 0 = 0 ∧ win0_1.index t 1 = 0 := by
    rcases fin_N0 t with rfl | rfl | rfl | rfl | rfl <;> decide
  unfold iblk0
  rw [View.read_apply]
  show V c main_arg4 _ = V c main_arg4 _
  congr 1
  funext a
  apply Fin.ext
  match a with
  | ⟨0, _⟩ => show win0_1.index t 0 * 128 + 1 * (y 0).val = (y 0).val; rw [hi.1]; omega
  | ⟨1, _⟩ => show win0_1.index t 1 * 128 + 1 * (y 1).val = (y 1).val; rw [hi.2]; omega

/-- The third window's block at point `t` sits at rows `10000 t …` of the result array. -/
theorem emb0_2 (t : Fin cfg0.N) (p : Fin 10000) (q : Fin 128) (hp : 10000 * t.val + p.val < 50000) :
    ((cfg0.win 2).blk t).view.emb (ix2 p q) = (ix2 (⟨10000 * t.val + p.val, hp⟩ : Fin 50000) q : S50000x128.Idx) := by
  have hi : win0_2.index t 0 = t.val ∧ win0_2.index t 1 = 0 := by
    rcases fin_N0 t with rfl | rfl | rfl | rfl | rfl <;> decide
  funext a
  apply Fin.ext
  match a with
  | ⟨0, _⟩ => show win0_2.index t 0 * 10000 + 1 * p.val = 10000 * t.val + p.val; rw [hi.1]; omega
  | ⟨1, _⟩ => show win0_2.index t 1 * 128 + 1 * q.val = q.val; rw [hi.2]; omega

/-- What point `t` writes back is block `t` of the product of the whole arrays. -/
theorem flushed0 (c : Dev nD) (t : Fin cfg0.N) :
    (dat0 V c).flushed 2 t = ((cfg0.win 2).blk t).view.read (Elt Ideal) (Cert.Spec.linFn (V c main_arg0) (V c main_arg4)) := by
  show (cfg0.win 2).cut (grid0.coords t) ((dat0 V c).after 2 t) = _
  rw [after0_2]
  unfold out0_2
  rw [View.canon_unit_zero hzLin]
  simp only [View.ld_unit_zero (S := S10000x128) hzLin, View.ld_unit_zero (S := S128x128) hzLin]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg0.N = 5 from N_0)
  have hp : 10000 * t.val + p.val < 50000 := by have := p.isLt; omega
  show k0_pay1 (iblk0 V c 0 t) (iblk0 V c 1 t) (ix2 p q) = Cert.Spec.linFn (V c main_arg0) (V c main_arg4) (((cfg0.win 2).blk t).view.emb (ix2 p q))
  rw [emb0_2 t p q hp]
  refine (lin_pay0 _ _ p q).trans ?_
  unfold Cert.Spec.linFn
  refine Eq.trans ?_ (Cert.HostRowOps.dot_apply plainR none _ _ _ q).symm
  refine Finset.sum_congr rfl fun k _ => ?_
  rw [iblk0_0_apply V c t (ix2 p k) (ix2 (⟨10000 * t.val + p.val, hp⟩ : Fin 50000) k) rfl rfl, iblk0_1_apply V c t (ix2 k q)]

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Row `i` of the result array lies in the block of point `i / 10000`: the five blocks tile the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  refine ⟨⟨(i 0).val / 10000, by rw [hN]; omega⟩, flush0_2 _, ?_⟩
  rw [mem_blk0]
  have hidx : ∀ t : Fin cfg0.N, win0_2.index t 0 = t.val ∧ win0_2.index t 1 = 0 := fun t => by
    rcases fin_N0 t with rfl | rfl | rfl | rfl | rfl <;> decide
  intro a
  match a with
  | ⟨0, _⟩ =>
    show win0_2.index _ 0 * 10000 ≤ (i 0).val ∧ (i 0).val < win0_2.index _ 0 * 10000 + 10000
    rw [(hidx _).1]
    show (i 0).val / 10000 * 10000 ≤ (i 0).val ∧ (i 0).val < (i 0).val / 10000 * 10000 + 10000
    omega
  | ⟨1, _⟩ =>
    show win0_2.index _ 1 * 128 ≤ (i 1).val ∧ (i 1).val < win0_2.index _ 1 * 128 + 128
    rw [(hidx _).2]
    omega

/-- The result array after the region: the host's product of the two arrays the region found. -/
theorem arr0 (c : Dev nD) : (dat0 (F := Ideal) V c).arrAt 2 cfg0.N = Cert.Spec.linFn (V c main_arg0) (V c main_arg4) :=
  (dat0 V c).arrAt_eq_of_cover 2 _ (fun t _ => flushed0 V c t) cover0

/-! ## Region 2: `main_v44` times `main_arg6` into `main_v45` -/

/-- Entry (p, q) of the body's block product: the sum over the shared axis. -/
theorem lin_pay2 (x : Vec Ideal S10000x128 .f32) (w : Vec Ideal S128x128 .f32) (p : Fin 10000) (q : Fin 128) :
    k2_pay1 x w (ix2 p q) = ∑ k : Fin 128, x (ix2 p k) * w (ix2 k q) := by
  unfold k2_pay1
  simp only [shapeCast_self]
  exact Cert.RowOps.matmul_zero_apply plainK none _ _ p q

/-- The first window's block at point `t` is rows `10000 t …` of the array. -/
theorem iblk2_0_apply (c : Dev nD) (t : Fin cfg2.N) (y : S10000x128.Idx) (i : S50000x128.Idx)
    (h0 : (i 0).val = 10000 * t.val + (y 0).val) (h1 : (i 1).val = (y 1).val) :
    (iblk2 V c 0 t : Vec Ideal S10000x128 .f32) y = (V c main_v44 : S50000x128.Idx → Elt Ideal .f32) i := by
  have hi : win2_0.index t 0 = t.val ∧ win2_0.index t 1 = 0 := by
    rcases fin_N2 t with rfl | rfl | rfl | rfl | rfl <;> decide
  unfold iblk2
  rw [View.read_apply]
  show V c main_v44 _ = V c main_v44 _
  congr 1
  funext a
  apply Fin.ext
  match a with
  | ⟨0, _⟩ => show win2_0.index t 0 * 10000 + 1 * (y 0).val = (i 0).val; rw [hi.1, h0]; omega
  | ⟨1, _⟩ => show win2_0.index t 1 * 128 + 1 * (y 1).val = (i 1).val; rw [hi.2, h1]; omega

/-- The second window's block is the whole matrix at every point. -/
theorem iblk2_1_apply (c : Dev nD) (t : Fin cfg2.N) (y : S128x128.Idx) :
    (iblk2 V c 1 t : Vec Ideal S128x128 .f32) y = (V c main_arg6 : S128x128.Idx → Elt Ideal .f32) y := by
  have hi : win2_1.index t 0 = 0 ∧ win2_1.index t 1 = 0 := by
    rcases fin_N2 t with rfl | rfl | rfl | rfl | rfl <;> decide
  unfold iblk2
  rw [View.read_apply]
  show V c main_arg6 _ = V c main_arg6 _
  congr 1
  funext a
  apply Fin.ext
  match a with
  | ⟨0, _⟩ => show win2_1.index t 0 * 128 + 1 * (y 0).val = (y 0).val; rw [hi.1]; omega
  | ⟨1, _⟩ => show win2_1.index t 1 * 128 + 1 * (y 1).val = (y 1).val; rw [hi.2]; omega

/-- The third window's block at point `t` sits at rows `10000 t …` of the result array. -/
theorem emb2_2 (t : Fin cfg2.N) (p : Fin 10000) (q : Fin 128) (hp : 10000 * t.val + p.val < 50000) :
    ((cfg2.win 2).blk t).view.emb (ix2 p q) = (ix2 (⟨10000 * t.val + p.val, hp⟩ : Fin 50000) q : S50000x128.Idx) := by
  have hi : win2_2.index t 0 = t.val ∧ win2_2.index t 1 = 0 := by
    rcases fin_N2 t with rfl | rfl | rfl | rfl | rfl <;> decide
  funext a
  apply Fin.ext
  match a with
  | ⟨0, _⟩ => show win2_2.index t 0 * 10000 + 1 * p.val = 10000 * t.val + p.val; rw [hi.1]; omega
  | ⟨1, _⟩ => show win2_2.index t 1 * 128 + 1 * q.val = q.val; rw [hi.2]; omega

/-- What point `t` writes back is block `t` of the product of the whole arrays. -/
theorem flushed2 (c : Dev nD) (t : Fin cfg2.N) :
    (dat2 V c).flushed 2 t = ((cfg2.win 2).blk t).view.read (Elt Ideal) (Cert.Spec.linFn (V c main_v44) (V c main_arg6)) := by
  show (cfg2.win 2).cut (grid2.coords t) ((dat2 V c).after 2 t) = _
  rw [after2_2]
  unfold out2_2
  rw [View.canon_unit_zero hzLin]
  simp only [View.ld_unit_zero (S := S10000x128) hzLin, View.ld_unit_zero (S := S128x128) hzLin]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg2.N = 5 from N_2)
  have hp : 10000 * t.val + p.val < 50000 := by have := p.isLt; omega
  show k2_pay1 (iblk2 V c 0 t) (iblk2 V c 1 t) (ix2 p q) = Cert.Spec.linFn (V c main_v44) (V c main_arg6) (((cfg2.win 2).blk t).view.emb (ix2 p q))
  rw [emb2_2 t p q hp]
  refine (lin_pay2 _ _ p q).trans ?_
  unfold Cert.Spec.linFn
  refine Eq.trans ?_ (Cert.HostRowOps.dot_apply plainR none _ _ _ q).symm
  refine Finset.sum_congr rfl fun k _ => ?_
  rw [iblk2_0_apply V c t (ix2 p k) (ix2 (⟨10000 * t.val + p.val, hp⟩ : Fin 50000) k) rfl rfl, iblk2_1_apply V c t (ix2 k q)]

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- Row `i` of the result array lies in the block of point `i / 10000`: the five blocks tile the array. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  refine ⟨⟨(i 0).val / 10000, by rw [hN]; omega⟩, flush2_2 _, ?_⟩
  rw [mem_blk2]
  have hidx : ∀ t : Fin cfg2.N, win2_2.index t 0 = t.val ∧ win2_2.index t 1 = 0 := fun t => by
    rcases fin_N2 t with rfl | rfl | rfl | rfl | rfl <;> decide
  intro a
  match a with
  | ⟨0, _⟩ =>
    show win2_2.index _ 0 * 10000 ≤ (i 0).val ∧ (i 0).val < win2_2.index _ 0 * 10000 + 10000
    rw [(hidx _).1]
    show (i 0).val / 10000 * 10000 ≤ (i 0).val ∧ (i 0).val < (i 0).val / 10000 * 10000 + 10000
    omega
  | ⟨1, _⟩ =>
    show win2_2.index _ 1 * 128 ≤ (i 1).val ∧ (i 1).val < win2_2.index _ 1 * 128 + 128
    rw [(hidx _).2]
    omega

/-- The result array after the region: the host's product of the two arrays the region found. -/
theorem arr2 (c : Dev nD) : (dat2 (F := Ideal) V c).arrAt 2 cfg2.N = Cert.Spec.linFn (V c main_v44) (V c main_arg6) :=
  (dat2 V c).arrAt_eq_of_cover 2 _ (fun t _ => flushed2 V c t) cover2

/-! ## Region 4: `main_arg2` times `main_arg4` into `main_v90` -/

/-- Entry (p, q) of the body's block product: the sum over the shared axis. -/
theorem lin_pay4 (x : Vec Ideal S10000x128 .f32) (w : Vec Ideal S128x128 .f32) (p : Fin 10000) (q : Fin 128) :
    k4_pay1 x w (ix2 p q) = ∑ k : Fin 128, x (ix2 p k) * w (ix2 k q) := by
  unfold k4_pay1
  exact Cert.RowOps.matmul_zero_apply plainK none _ _ p q

/-- The first window's block at point `t` is rows `10000 t …` of the array. -/
theorem iblk4_0_apply (c : Dev nD) (t : Fin cfg4.N) (y : S10000x128.Idx) (i : S50000x128.Idx)
    (h0 : (i 0).val = 10000 * t.val + (y 0).val) (h1 : (i 1).val = (y 1).val) :
    (iblk4 V c 0 t : Vec Ideal S10000x128 .f32) y = (V c main_arg2 : S50000x128.Idx → Elt Ideal .f32) i := by
  have hi : win4_0.index t 0 = t.val ∧ win4_0.index t 1 = 0 := by
    rcases fin_N4 t with rfl | rfl | rfl | rfl | rfl <;> decide
  unfold iblk4
  rw [View.read_apply]
  show V c main_arg2 _ = V c main_arg2 _
  congr 1
  funext a
  apply Fin.ext
  match a with
  | ⟨0, _⟩ => show win4_0.index t 0 * 10000 + 1 * (y 0).val = (i 0).val; rw [hi.1, h0]; omega
  | ⟨1, _⟩ => show win4_0.index t 1 * 128 + 1 * (y 1).val = (i 1).val; rw [hi.2, h1]; omega

/-- The second window's block is the whole matrix at every point. -/
theorem iblk4_1_apply (c : Dev nD) (t : Fin cfg4.N) (y : S128x128.Idx) :
    (iblk4 V c 1 t : Vec Ideal S128x128 .f32) y = (V c main_arg4 : S128x128.Idx → Elt Ideal .f32) y := by
  have hi : win4_1.index t 0 = 0 ∧ win4_1.index t 1 = 0 := by
    rcases fin_N4 t with rfl | rfl | rfl | rfl | rfl <;> decide
  unfold iblk4
  rw [View.read_apply]
  show V c main_arg4 _ = V c main_arg4 _
  congr 1
  funext a
  apply Fin.ext
  match a with
  | ⟨0, _⟩ => show win4_1.index t 0 * 128 + 1 * (y 0).val = (y 0).val; rw [hi.1]; omega
  | ⟨1, _⟩ => show win4_1.index t 1 * 128 + 1 * (y 1).val = (y 1).val; rw [hi.2]; omega

/-- The third window's block at point `t` sits at rows `10000 t …` of the result array. -/
theorem emb4_2 (t : Fin cfg4.N) (p : Fin 10000) (q : Fin 128) (hp : 10000 * t.val + p.val < 50000) :
    ((cfg4.win 2).blk t).view.emb (ix2 p q) = (ix2 (⟨10000 * t.val + p.val, hp⟩ : Fin 50000) q : S50000x128.Idx) := by
  have hi : win4_2.index t 0 = t.val ∧ win4_2.index t 1 = 0 := by
    rcases fin_N4 t with rfl | rfl | rfl | rfl | rfl <;> decide
  funext a
  apply Fin.ext
  match a with
  | ⟨0, _⟩ => show win4_2.index t 0 * 10000 + 1 * p.val = 10000 * t.val + p.val; rw [hi.1]; omega
  | ⟨1, _⟩ => show win4_2.index t 1 * 128 + 1 * q.val = q.val; rw [hi.2]; omega

/-- What point `t` writes back is block `t` of the product of the whole arrays. -/
theorem flushed4 (c : Dev nD) (t : Fin cfg4.N) :
    (dat4 V c).flushed 2 t = ((cfg4.win 2).blk t).view.read (Elt Ideal) (Cert.Spec.linFn (V c main_arg2) (V c main_arg4)) := by
  show (cfg4.win 2).cut (grid4.coords t) ((dat4 V c).after 2 t) = _
  rw [after4_2]
  unfold out4_2
  rw [View.canon_unit_zero hzLin]
  simp only [View.ld_unit_zero (S := S10000x128) hzLin, View.ld_unit_zero (S := S128x128) hzLin]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg4.N = 5 from N_4)
  have hp : 10000 * t.val + p.val < 50000 := by have := p.isLt; omega
  show k4_pay1 (iblk4 V c 0 t) (iblk4 V c 1 t) (ix2 p q) = Cert.Spec.linFn (V c main_arg2) (V c main_arg4) (((cfg4.win 2).blk t).view.emb (ix2 p q))
  rw [emb4_2 t p q hp]
  refine (lin_pay4 _ _ p q).trans ?_
  unfold Cert.Spec.linFn
  refine Eq.trans ?_ (Cert.HostRowOps.dot_apply plainR none _ _ _ q).symm
  refine Finset.sum_congr rfl fun k _ => ?_
  rw [iblk4_0_apply V c t (ix2 p k) (ix2 (⟨10000 * t.val + p.val, hp⟩ : Fin 50000) k) rfl rfl, iblk4_1_apply V c t (ix2 k q)]

/-- An index of the result array is in point `t`'s block iff each coordinate is in the block's range on its axis. -/
theorem mem_blk4 (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v90).slice (win4_2.rect t)).set ↔ _
  rw [View.set_slice_whole, Rect.mem_set_unit]
  exact Iff.rfl

/-- Row `i` of the result array lies in the block of point `i / 10000`: the five blocks tile the array. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 5 := N_4
  refine ⟨⟨(i 0).val / 10000, by rw [hN]; omega⟩, flush4_2 _, ?_⟩
  rw [mem_blk4]
  have hidx : ∀ t : Fin cfg4.N, win4_2.index t 0 = t.val ∧ win4_2.index t 1 = 0 := fun t => by
    rcases fin_N4 t with rfl | rfl | rfl | rfl | rfl <;> decide
  intro a
  match a with
  | ⟨0, _⟩ =>
    show win4_2.index _ 0 * 10000 ≤ (i 0).val ∧ (i 0).val < win4_2.index _ 0 * 10000 + 10000
    rw [(hidx _).1]
    show (i 0).val / 10000 * 10000 ≤ (i 0).val ∧ (i 0).val < (i 0).val / 10000 * 10000 + 10000
    omega
  | ⟨1, _⟩ =>
    show win4_2.index _ 1 * 128 ≤ (i 1).val ∧ (i 1).val < win4_2.index _ 1 * 128 + 128
    rw [(hidx _).2]
    omega

/-- The result array after the region: the host's product of the two arrays the region found. -/
theorem arr4 (c : Dev nD) : (dat4 (F := Ideal) V c).arrAt 2 cfg4.N = Cert.Spec.linFn (V c main_arg2) (V c main_arg4) :=
  (dat4 V c).arrAt_eq_of_cover 2 _ (fun t _ => flushed4 V c t) cover4

/-! ## Region 6: `main_v134` times `main_arg6` into `main_v135` -/

/-- Entry (p, q) of the body's block product: the sum over the shared axis. -/
theorem lin_pay6 (x : Vec Ideal S10000x128 .f32) (w : Vec Ideal S128x128 .f32) (p : Fin 10000) (q : Fin 128) :
    k6_pay1 x w (ix2 p q) = ∑ k : Fin 128, x (ix2 p k) * w (ix2 k q) := by
  unfold k6_pay1
  simp only [shapeCast_self]
  exact Cert.RowOps.matmul_zero_apply plainK none _ _ p q

/-- The first window's block at point `t` is rows `10000 t …` of the array. -/
theorem iblk6_0_apply (c : Dev nD) (t : Fin cfg6.N) (y : S10000x128.Idx) (i : S50000x128.Idx)
    (h0 : (i 0).val = 10000 * t.val + (y 0).val) (h1 : (i 1).val = (y 1).val) :
    (iblk6 V c 0 t : Vec Ideal S10000x128 .f32) y = (V c main_v134 : S50000x128.Idx → Elt Ideal .f32) i := by
  have hi : win6_0.index t 0 = t.val ∧ win6_0.index t 1 = 0 := by
    rcases fin_N6 t with rfl | rfl | rfl | rfl | rfl <;> decide
  unfold iblk6
  rw [View.read_apply]
  show V c main_v134 _ = V c main_v134 _
  congr 1
  funext a
  apply Fin.ext
  match a with
  | ⟨0, _⟩ => show win6_0.index t 0 * 10000 + 1 * (y 0).val = (i 0).val; rw [hi.1, h0]; omega
  | ⟨1, _⟩ => show win6_0.index t 1 * 128 + 1 * (y 1).val = (i 1).val; rw [hi.2, h1]; omega

/-- The second window's block is the whole matrix at every point. -/
theorem iblk6_1_apply (c : Dev nD) (t : Fin cfg6.N) (y : S128x128.Idx) :
    (iblk6 V c 1 t : Vec Ideal S128x128 .f32) y = (V c main_arg6 : S128x128.Idx → Elt Ideal .f32) y := by
  have hi : win6_1.index t 0 = 0 ∧ win6_1.index t 1 = 0 := by
    rcases fin_N6 t with rfl | rfl | rfl | rfl | rfl <;> decide
  unfold iblk6
  rw [View.read_apply]
  show V c main_arg6 _ = V c main_arg6 _
  congr 1
  funext a
  apply Fin.ext
  match a with
  | ⟨0, _⟩ => show win6_1.index t 0 * 128 + 1 * (y 0).val = (y 0).val; rw [hi.1]; omega
  | ⟨1, _⟩ => show win6_1.index t 1 * 128 + 1 * (y 1).val = (y 1).val; rw [hi.2]; omega

/-- The third window's block at point `t` sits at rows `10000 t …` of the result array. -/
theorem emb6_2 (t : Fin cfg6.N) (p : Fin 10000) (q : Fin 128) (hp : 10000 * t.val + p.val < 50000) :
    ((cfg6.win 2).blk t).view.emb (ix2 p q) = (ix2 (⟨10000 * t.val + p.val, hp⟩ : Fin 50000) q : S50000x128.Idx) := by
  have hi : win6_2.index t 0 = t.val ∧ win6_2.index t 1 = 0 := by
    rcases fin_N6 t with rfl | rfl | rfl | rfl | rfl <;> decide
  funext a
  apply Fin.ext
  match a with
  | ⟨0, _⟩ => show win6_2.index t 0 * 10000 + 1 * p.val = 10000 * t.val + p.val; rw [hi.1]; omega
  | ⟨1, _⟩ => show win6_2.index t 1 * 128 + 1 * q.val = q.val; rw [hi.2]; omega

/-- What point `t` writes back is block `t` of the product of the whole arrays. -/
theorem flushed6 (c : Dev nD) (t : Fin cfg6.N) :
    (dat6 V c).flushed 2 t = ((cfg6.win 2).blk t).view.read (Elt Ideal) (Cert.Spec.linFn (V c main_v134) (V c main_arg6)) := by
  show (cfg6.win 2).cut (grid6.coords t) ((dat6 V c).after 2 t) = _
  rw [after6_2]
  unfold out6_2
  rw [View.canon_unit_zero hzLin]
  simp only [View.ld_unit_zero (S := S10000x128) hzLin, View.ld_unit_zero (S := S128x128) hzLin]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg6.N = 5 from N_6)
  have hp : 10000 * t.val + p.val < 50000 := by have := p.isLt; omega
  show k6_pay1 (iblk6 V c 0 t) (iblk6 V c 1 t) (ix2 p q) = Cert.Spec.linFn (V c main_v134) (V c main_arg6) (((cfg6.win 2).blk t).view.emb (ix2 p q))
  rw [emb6_2 t p q hp]
  refine (lin_pay6 _ _ p q).trans ?_
  unfold Cert.Spec.linFn
  refine Eq.trans ?_ (Cert.HostRowOps.dot_apply plainR none _ _ _ q).symm
  refine Finset.sum_congr rfl fun k _ => ?_
  rw [iblk6_0_apply V c t (ix2 p k) (ix2 (⟨10000 * t.val + p.val, hp⟩ : Fin 50000) k) rfl rfl, iblk6_1_apply V c t (ix2 k q)]

/-- An index of the result array is in point `t`'s block iff each coordinate is in the block's range on its axis. -/
theorem mem_blk6 (t : Fin cfg6.N) (i : S50000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v135).slice (win6_2.rect t)).set ↔ _
  rw [View.set_slice_whole, Rect.mem_set_unit]
  exact Iff.rfl

/-- Row `i` of the result array lies in the block of point `i / 10000`: the five blocks tile the array. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 5 := N_6
  refine ⟨⟨(i 0).val / 10000, by rw [hN]; omega⟩, flush6_2 _, ?_⟩
  rw [mem_blk6]
  have hidx : ∀ t : Fin cfg6.N, win6_2.index t 0 = t.val ∧ win6_2.index t 1 = 0 := fun t => by
    rcases fin_N6 t with rfl | rfl | rfl | rfl | rfl <;> decide
  intro a
  match a with
  | ⟨0, _⟩ =>
    show win6_2.index _ 0 * 10000 ≤ (i 0).val ∧ (i 0).val < win6_2.index _ 0 * 10000 + 10000
    rw [(hidx _).1]
    show (i 0).val / 10000 * 10000 ≤ (i 0).val ∧ (i 0).val < (i 0).val / 10000 * 10000 + 10000
    omega
  | ⟨1, _⟩ =>
    show win6_2.index _ 1 * 128 ≤ (i 1).val ∧ (i 1).val < win6_2.index _ 1 * 128 + 128
    rw [(hidx _).2]
    omega

/-- The result array after the region: the host's product of the two arrays the region found. -/
theorem arr6 (c : Dev nD) : (dat6 (F := Ideal) V c).arrAt 2 cfg6.N = Cert.Spec.linFn (V c main_v134) (V c main_arg6) :=
  (dat6 V c).arrAt_eq_of_cover 2 _ (fun t _ => flushed6 V c t) cover6

end Cert.KernelIdeal.Regions

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.BiasPoint.lean ====
/-
  The arithmetic of the bias regions at one entry.

  A bias region adds one [1,128] row to every row of a block of a [50000,128] array, and the first layer's then clips
  at zero.  Here: what the body's stored vector holds at entry (p, q) of a block, and what the whole-array functions
  `biasFn` and `biasReluFn` hold at entry (i, q) of the array; both are the array's entry plus the row's entry q,
  clipped or not.
-/
import proofs.«132256_j23630910063292_1_alg».proof.Proof.Gen.KernelIdeal.Frame
import proofs.«132256_j23630910063292_1_alg».proof.Proof.Spec
import proofs.«132256_j23630910063292_1_alg».proof.Proof.LibRowColOps
import proofs.«132256_j23630910063292_1_alg».proof.Proof.LibHostRowOps
import Idealize.ShloMosaic.Lib.Pipeline.Value
import Idealize.ShloMosaic.PureOps.Ideal
import Idealize.ShloMosaic.PureOps.Ideal.Laws
import Idealize.ShloMosaic.Lib.ValueIdx

noncomputable section

open Idealize.ShloMosaic Idealize.ShloMosaic.TcCoe Idealize.SL.Sem
open Idealize.ShloMosaic.ValueIdx

namespace Cert.KernelIdeal.Regions.BiasPoint

open Cert.KernelIdeal Cert.KernelIdeal.Gen

variable [Cert.ReferenceIdeal.Facts₀]

/-- The zero offsets, as the constant function. -/
theorem zeroOff : (![0, 0] : Fin 2 → Nat) = fun _ => 0 := funext fun a => by fin_cases a <;> rfl

/-- The row added to every row of the array: entry (i, q) is the array's plus the row's entry q. -/
theorem biasFn_apply (A : Cert.Spec.Feat Ideal) (R : Cert.Spec.Row Ideal) (i : Fin 50000) (q : Fin 128) :
    Cert.Spec.biasFn A R (ix2 i q) = A (ix2 i q) + R (ix2 (0 : Fin 1) q) := by
  unfold Cert.Spec.biasFn
  exact congrArg (A (ix2 i q) + ·) (Cert.HostRowOps.rowToMat_apply R _ i q)

/-- The same, clipped at zero. -/
theorem biasReluFn_apply (A : Cert.Spec.Feat Ideal) (R : Cert.Spec.Row Ideal) (i : Fin 50000) (q : Fin 128) :
    Cert.Spec.biasReluFn A R (ix2 i q) = max (A (ix2 i q) + R (ix2 (0 : Fin 1) q)) (Ideal.ofBits .f32 0x00000000#32) := by
  unfold Cert.Spec.biasReluFn
  refine (maximumf_apply _ _ _).trans ?_
  rw [biasFn_apply]
  exact congrArg (max (A (ix2 i q) + R (ix2 (0 : Fin 1) q)) ·)
    (broadcastInDim_apply _ _ _ _ ix0 (fun a => a.elim0))

/-- What the first bias region's body stores at entry (p, q) of its block. -/
theorem pay1_apply (r : Vec Ideal S1x128 .f32) (a : Vec Ideal S10000x128 .f32) (p : Fin 10000) (q : Fin 128) :
    k1_pay1 r a (ix2 p q) = max (a (ix2 p q) + r (ix2 (0 : Fin 1) q)) (Ideal.ofBits .f32 0x00000000#32) := by
  unfold k1_pay1
  simp only [shapeCast_self]
  refine (maximumf_apply _ _ _).trans ?_
  refine congrArg (max · _) ?_
  refine (addf_apply _ _ _).trans ?_
  exact congrArg (a (ix2 p q) + ·) (Cert.RowColOps.rowSpread_apply r _ p q)

/-- The second bias region's body: no clipping. -/
theorem pay3_apply (r : Vec Ideal S1x128 .f32) (a : Vec Ideal S10000x128 .f32) (p : Fin 10000) (q : Fin 128) :
    k3_pay1 r a (ix2 p q) = a (ix2 p q) + r (ix2 (0 : Fin 1) q) := by
  unfold k3_pay1
  simp only [shapeCast_self]
  refine (addf_apply _ _ _).trans ?_
  exact congrArg (a (ix2 p q) + ·) (Cert.RowColOps.rowSpread_apply r _ p q)

/-- The third bias region's body is the first's. -/
theorem pay5_apply (r : Vec Ideal S1x128 .f32) (a : Vec Ideal S10000x128 .f32) (p : Fin 10000) (q : Fin 128) :
    k5_pay1 r a (ix2 p q) = max (a (ix2 p q) + r (ix2 (0 : Fin 1) q)) (Ideal.ofBits .f32 0x00000000#32) := by
  unfold k5_pay1
  simp only [shapeCast_self]
  refine (maximumf_apply _ _ _).trans ?_
  refine congrArg (max · _) ?_
  refine (addf_apply _ _ _).trans ?_
  exact congrArg (a (ix2 p q) + ·) (Cert.RowColOps.rowSpread_apply r _ p q)

/-- The fourth bias region's body is the second's. -/
theorem pay7_apply (r : Vec Ideal S1x128 .f32) (a : Vec Ideal S10000x128 .f32) (p : Fin 10000) (q : Fin 128) :
    k7_pay1 r a (ix2 p q) = a (ix2 p q) + r (ix2 (0 : Fin 1) q) := by
  unfold k7_pay1
  simp only [shapeCast_self]
  refine (addf_apply _ _ _).trans ?_
  exact congrArg (a (ix2 p q) + ·) (Cert.RowColOps.rowSpread_apply r _ p q)

end Cert.KernelIdeal.Regions.BiasPoint

end
-- ==== Proof.Bias1.lean ====
/-
  The first bias region's result array as one function of the arrays it reads.

  The region runs over 5 grid points.  At point t its first window holds rows 10000 t … 10000 t + 9999 of the
  [50000,128] array, its second window the whole [1,128] row, and what it writes back to rows 10000 t … of the result
  is, entry by entry, max(array entry + row entry, 0).  The five blocks tile the result, so the result is
  the row added to every row of the array, clipped at zero.
-/
import proofs.«132256_j23630910063292_1_alg».proof.Proof.Gen.KernelIdeal.Frame
import proofs.«132256_j23630910063292_1_alg».proof.Proof.Spec
import proofs.«132256_j23630910063292_1_alg».proof.Proof.LibRowColOps
import proofs.«132256_j23630910063292_1_alg».proof.Proof.LibHostRowOps
import Idealize.ShloMosaic.Lib.Pipeline.Value
import Idealize.ShloMosaic.PureOps.Ideal
import Idealize.ShloMosaic.PureOps.Ideal.Laws
import Idealize.ShloMosaic.Lib.ValueIdx
import proofs.«132256_j23630910063292_1_alg».proof.Proof.BiasPoint

noncomputable section

open Idealize.ShloMosaic Idealize.ShloMosaic.TcCoe Idealize.SL.Sem
open Idealize.ShloMosaic.Pipeline (Dat)
open Idealize.ShloMosaic.ValueIdx

namespace Cert.KernelIdeal.Regions.Bias1

open Cert.KernelIdeal Cert.KernelIdeal.Gen Cert.KernelIdeal.Regions

variable [Cert.ReferenceIdeal.Facts₀]
variable (V : (c : Dev nD) → (b : Ref sig .tc) → Buf (Elt Ideal) ((c : Thread nD τ).loc b))

/-- The array window's block at point `t` is rows `10000 t …` of the array. -/
theorem blockA_apply (c : Dev nD) (t : Fin cfg1.N) (y : S10000x128.Idx) (i : S50000x128.Idx)
    (h0 : (i 0).val = 10000 * t.val + (y 0).val) (h1 : (i 1).val = (y 1).val) :
    (iblk1 V c 0 t : Vec Ideal S10000x128 .f32) y = (V c main_v42 : S50000x128.Idx → Elt Ideal .f32) i := by
  have hi : win1_0.index t 0 = t.val ∧ win1_0.index t 1 = 0 := by
    rcases fin_N1 t with rfl | rfl | rfl | rfl | rfl <;> decide
  unfold iblk1
  rw [View.read_apply]
  show V c main_v42 _ = V c main_v42 _
  congr 1
  funext a
  apply Fin.ext
  match a with
  | ⟨0, _⟩ => show win1_0.index t 0 * 10000 + 1 * (y 0).val = (i 0).val; rw [hi.1, h0]; omega
  | ⟨1, _⟩ => show win1_0.index t 1 * 128 + 1 * (y 1).val = (i 1).val; rw [hi.2, h1]; omega

/-- The row window's block at every point is the whole row. -/
theorem blockR_apply (c : Dev nD) (t : Fin cfg1.N) (y : S1x128.Idx) :
    (iblk1 V c 1 t : Vec Ideal S1x128 .f32) y = (V c main_v43 : S1x128.Idx → Elt Ideal .f32) y := by
  have hi : win1_1.index t 0 = 0 ∧ win1_1.index t 1 = 0 := by
    rcases fin_N1 t with rfl | rfl | rfl | rfl | rfl <;> decide
  unfold iblk1
  rw [View.read_apply]
  show V c main_v43 _ = V c main_v43 _
  congr 1
  funext a
  apply Fin.ext
  match a with
  | ⟨0, _⟩ => show win1_1.index t 0 * 1 + 1 * (y 0).val = (y 0).val; rw [hi.1]; omega
  | ⟨1, _⟩ => show win1_1.index t 1 * 128 + 1 * (y 1).val = (y 1).val; rw [hi.2]; omega

/-- The result window's block at point `t` sits at rows `10000 t …` of the result array. -/
theorem embO (t : Fin cfg1.N) (p : Fin 10000) (q : Fin 128) (hp : 10000 * t.val + p.val < 50000) :
    ((cfg1.win 2).blk t).view.emb (ix2 p q) = (ix2 (⟨10000 * t.val + p.val, hp⟩ : Fin 50000) q : S50000x128.Idx) := by
  have hi : win1_2.index t 0 = t.val ∧ win1_2.index t 1 = 0 := by
    rcases fin_N1 t with rfl | rfl | rfl | rfl | rfl <;> decide
  funext a
  apply Fin.ext
  match a with
  | ⟨0, _⟩ => show win1_2.index t 0 * 10000 + 1 * p.val = 10000 * t.val + p.val; rw [hi.1]; omega
  | ⟨1, _⟩ => show win1_2.index t 1 * 128 + 1 * q.val = q.val; rw [hi.2]; omega

/-- What point `t` writes back is block `t` of the row added to every row of the array, clipped at zero. -/
theorem flushed_eq (c : Dev nD) (t : Fin cfg1.N) :
    (dat1 V c).flushed 2 t = ((cfg1.win 2).blk t).view.read (Elt Ideal) (Cert.Spec.biasReluFn (V c main_v42) (V c main_v43)) := by
  show (cfg1.win 2).cut (grid1.coords t) ((dat1 V c).after 2 t) = _
  rw [after1_2]
  unfold out1_2
  rw [View.canon_unit_zero BiasPoint.zeroOff]
  simp only [View.ld_unit_zero (S := S10000x128) BiasPoint.zeroOff, View.ld_unit_zero (S := S1x128) BiasPoint.zeroOff]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg1.N = 5 from N_1)
  have hp : 10000 * t.val + p.val < 50000 := by have := p.isLt; omega
  show k1_pay1 (iblk1 V c 1 t) (iblk1 V c 0 t) (ix2 p q) = Cert.Spec.biasReluFn (V c main_v42) (V c main_v43) (((cfg1.win 2).blk t).view.emb (ix2 p q))
  rw [embO t p q hp]
  refine (BiasPoint.pay1_apply _ _ p q).trans ?_
  refine Eq.trans ?_ (BiasPoint.biasReluFn_apply _ _ _ q).symm
  rw [blockA_apply V c t (ix2 p q) (ix2 (⟨10000 * t.val + p.val, hp⟩ : Fin 50000) q) rfl rfl, blockR_apply V c t (ix2 (0 : Fin 1) q)]

/-- An index of the result is in point `t`'s block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v44).slice (win1_2.rect t)).set ↔ _
  rw [View.set_slice_whole, Rect.mem_set_unit]
  exact Iff.rfl

/-- Row `r` of the result lies in the block of point `r / 10000`, and every point writes back. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_2 _, ?_⟩
  rw [mem_blk]
  have hidx : ∀ t : Fin cfg1.N, win1_2.index t 0 = t.val ∧ win1_2.index t 1 = 0 := fun t => by
    rcases fin_N1 t with rfl | rfl | rfl | rfl | rfl <;> decide
  intro a
  match a with
  | ⟨0, _⟩ =>
    show win1_2.index _ 0 * 10000 ≤ (i 0).val ∧ (i 0).val < win1_2.index _ 0 * 10000 + 10000
    rw [(hidx _).1]
    show (i 0).val / 10000 * 10000 ≤ (i 0).val ∧ (i 0).val < (i 0).val / 10000 * 10000 + 10000
    omega
  | ⟨1, _⟩ =>
    show win1_2.index _ 1 * 128 ≤ (i 1).val ∧ (i 1).val < win1_2.index _ 1 * 128 + 128
    rw [(hidx _).2]
    omega

/-- So the result array ends holding the row added to every row of the array, clipped at zero. -/
theorem arr (c : Dev nD) : (dat1 (F := Ideal) V c).arrAt 2 cfg1.N = Cert.Spec.biasReluFn (V c main_v42) (V c main_v43) :=
  (dat1 V c).arrAt_eq_of_cover 2 _ (fun t _ => flushed_eq V c t) cover

end Cert.KernelIdeal.Regions.Bias1

end
-- ==== Proof.Bias3.lean ====
/-
  The second bias region's result array as one function of the arrays it reads.

  The region runs over 5 grid points.  At point t its first window holds rows 10000 t … 10000 t + 9999 of the
  [50000,128] array, its second window the whole [1,128] row, and what it writes back to rows 10000 t … of the result
  is, entry by entry, array entry + row entry.  The five blocks tile the result, so the result is
  the row added to every row of the array.
-/
import proofs.«132256_j23630910063292_1_alg».proof.Proof.Gen.KernelIdeal.Frame
import proofs.«132256_j23630910063292_1_alg».proof.Proof.Spec
import proofs.«132256_j23630910063292_1_alg».proof.Proof.LibRowColOps
import proofs.«132256_j23630910063292_1_alg».proof.Proof.LibHostRowOps
import Idealize.ShloMosaic.Lib.Pipeline.Value
import Idealize.ShloMosaic.PureOps.Ideal
import Idealize.ShloMosaic.PureOps.Ideal.Laws
import Idealize.ShloMosaic.Lib.ValueIdx
import proofs.«132256_j23630910063292_1_alg».proof.Proof.BiasPoint

noncomputable section

open Idealize.ShloMosaic Idealize.ShloMosaic.TcCoe Idealize.SL.Sem
open Idealize.ShloMosaic.Pipeline (Dat)
open Idealize.ShloMosaic.ValueIdx

namespace Cert.KernelIdeal.Regions.Bias3

open Cert.KernelIdeal Cert.KernelIdeal.Gen Cert.KernelIdeal.Regions

variable [Cert.ReferenceIdeal.Facts₀]
variable (V : (c : Dev nD) → (b : Ref sig .tc) → Buf (Elt Ideal) ((c : Thread nD τ).loc b))

/-- The array window's block at point `t` is rows `10000 t …` of the array. -/
theorem blockA_apply (c : Dev nD) (t : Fin cfg3.N) (y : S10000x128.Idx) (i : S50000x128.Idx)
    (h0 : (i 0).val = 10000 * t.val + (y 0).val) (h1 : (i 1).val = (y 1).val) :
    (iblk3 V c 0 t : Vec Ideal S10000x128 .f32) y = (V c main_v87 : S50000x128.Idx → Elt Ideal .f32) i := by
  have hi : win3_0.index t 0 = t.val ∧ win3_0.index t 1 = 0 := by
    rcases fin_N3 t with rfl | rfl | rfl | rfl | rfl <;> decide
  unfold iblk3
  rw [View.read_apply]
  show V c main_v87 _ = V c main_v87 _
  congr 1
  funext a
  apply Fin.ext
  match a with
  | ⟨0, _⟩ => show win3_0.index t 0 * 10000 + 1 * (y 0).val = (i 0).val; rw [hi.1, h0]; omega
  | ⟨1, _⟩ => show win3_0.index t 1 * 128 + 1 * (y 1).val = (i 1).val; rw [hi.2, h1]; omega

/-- The row window's block at every point is the whole row. -/
theorem blockR_apply (c : Dev nD) (t : Fin cfg3.N) (y : S1x128.Idx) :
    (iblk3 V c 1 t : Vec Ideal S1x128 .f32) y = (V c main_v88 : S1x128.Idx → Elt Ideal .f32) y := by
  have hi : win3_1.index t 0 = 0 ∧ win3_1.index t 1 = 0 := by
    rcases fin_N3 t with rfl | rfl | rfl | rfl | rfl <;> decide
  unfold iblk3
  rw [View.read_apply]
  show V c main_v88 _ = V c main_v88 _
  congr 1
  funext a
  apply Fin.ext
  match a with
  | ⟨0, _⟩ => show win3_1.index t 0 * 1 + 1 * (y 0).val = (y 0).val; rw [hi.1]; omega
  | ⟨1, _⟩ => show win3_1.index t 1 * 128 + 1 * (y 1).val = (y 1).val; rw [hi.2]; omega

/-- The result window's block at point `t` sits at rows `10000 t …` of the result array. -/
theorem embO (t : Fin cfg3.N) (p : Fin 10000) (q : Fin 128) (hp : 10000 * t.val + p.val < 50000) :
    ((cfg3.win 2).blk t).view.emb (ix2 p q) = (ix2 (⟨10000 * t.val + p.val, hp⟩ : Fin 50000) q : S50000x128.Idx) := by
  have hi : win3_2.index t 0 = t.val ∧ win3_2.index t 1 = 0 := by
    rcases fin_N3 t with rfl | rfl | rfl | rfl | rfl <;> decide
  funext a
  apply Fin.ext
  match a with
  | ⟨0, _⟩ => show win3_2.index t 0 * 10000 + 1 * p.val = 10000 * t.val + p.val; rw [hi.1]; omega
  | ⟨1, _⟩ => show win3_2.index t 1 * 128 + 1 * q.val = q.val; rw [hi.2]; omega

/-- What point `t` writes back is block `t` of the row added to every row of the array. -/
theorem flushed_eq (c : Dev nD) (t : Fin cfg3.N) :
    (dat3 V c).flushed 2 t = ((cfg3.win 2).blk t).view.read (Elt Ideal) (Cert.Spec.biasFn (V c main_v87) (V c main_v88)) := by
  show (cfg3.win 2).cut (grid3.coords t) ((dat3 V c).after 2 t) = _
  rw [after3_2]
  unfold out3_2
  rw [View.canon_unit_zero BiasPoint.zeroOff]
  simp only [View.ld_unit_zero (S := S10000x128) BiasPoint.zeroOff, View.ld_unit_zero (S := S1x128) BiasPoint.zeroOff]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg3.N = 5 from N_3)
  have hp : 10000 * t.val + p.val < 50000 := by have := p.isLt; omega
  show k3_pay1 (iblk3 V c 1 t) (iblk3 V c 0 t) (ix2 p q) = Cert.Spec.biasFn (V c main_v87) (V c main_v88) (((cfg3.win 2).blk t).view.emb (ix2 p q))
  rw [embO t p q hp]
  refine (BiasPoint.pay3_apply _ _ p q).trans ?_
  refine Eq.trans ?_ (BiasPoint.biasFn_apply _ _ _ q).symm
  rw [blockA_apply V c t (ix2 p q) (ix2 (⟨10000 * t.val + p.val, hp⟩ : Fin 50000) q) rfl rfl, blockR_apply V c t (ix2 (0 : Fin 1) q)]

/-- An index of the result is in point `t`'s block iff each coordinate is in the block's range on its axis. -/
theorem mem_blk (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v89).slice (win3_2.rect t)).set ↔ _
  rw [View.set_slice_whole, Rect.mem_set_unit]
  exact Iff.rfl

/-- Row `r` of the result lies in the block of point `r / 10000`, and every point writes back. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  refine ⟨⟨(i 0).val / 10000, by rw [hN]; omega⟩, flush3_2 _, ?_⟩
  rw [mem_blk]
  have hidx : ∀ t : Fin cfg3.N, win3_2.index t 0 = t.val ∧ win3_2.index t 1 = 0 := fun t => by
    rcases fin_N3 t with rfl | rfl | rfl | rfl | rfl <;> decide
  intro a
  match a with
  | ⟨0, _⟩ =>
    show win3_2.index _ 0 * 10000 ≤ (i 0).val ∧ (i 0).val < win3_2.index _ 0 * 10000 + 10000
    rw [(hidx _).1]
    show (i 0).val / 10000 * 10000 ≤ (i 0).val ∧ (i 0).val < (i 0).val / 10000 * 10000 + 10000
    omega
  | ⟨1, _⟩ =>
    show win3_2.index _ 1 * 128 ≤ (i 1).val ∧ (i 1).val < win3_2.index _ 1 * 128 + 128
    rw [(hidx _).2]
    omega

/-- So the result array ends holding the row added to every row of the array. -/
theorem arr (c : Dev nD) : (dat3 (F := Ideal) V c).arrAt 2 cfg3.N = Cert.Spec.biasFn (V c main_v87) (V c main_v88) :=
  (dat3 V c).arrAt_eq_of_cover 2 _ (fun t _ => flushed_eq V c t) cover

end Cert.KernelIdeal.Regions.Bias3

end
-- ==== Proof.Bias5.lean ====
/-
  The third bias region's result array as one function of the arrays it reads.

  The region runs over 5 grid points.  At point t its first window holds rows 10000 t … 10000 t + 9999 of the
  [50000,128] array, its second window the whole [1,128] row, and what it writes back to rows 10000 t … of the result
  is, entry by entry, max(array entry + row entry, 0).  The five blocks tile the result, so the result is
  the row added to every row of the array, clipped at zero.
-/
import proofs.«132256_j23630910063292_1_alg».proof.Proof.Gen.KernelIdeal.Frame
import proofs.«132256_j23630910063292_1_alg».proof.Proof.Spec
import proofs.«132256_j23630910063292_1_alg».proof.Proof.LibRowColOps
import proofs.«132256_j23630910063292_1_alg».proof.Proof.LibHostRowOps
import Idealize.ShloMosaic.Lib.Pipeline.Value
import Idealize.ShloMosaic.PureOps.Ideal
import Idealize.ShloMosaic.PureOps.Ideal.Laws
import Idealize.ShloMosaic.Lib.ValueIdx
import proofs.«132256_j23630910063292_1_alg».proof.Proof.BiasPoint

noncomputable section

open Idealize.ShloMosaic Idealize.ShloMosaic.TcCoe Idealize.SL.Sem
open Idealize.ShloMosaic.Pipeline (Dat)
open Idealize.ShloMosaic.ValueIdx

namespace Cert.KernelIdeal.Regions.Bias5

open Cert.KernelIdeal Cert.KernelIdeal.Gen Cert.KernelIdeal.Regions

variable [Cert.ReferenceIdeal.Facts₀]
variable (V : (c : Dev nD) → (b : Ref sig .tc) → Buf (Elt Ideal) ((c : Thread nD τ).loc b))

/-- The array window's block at point `t` is rows `10000 t …` of the array. -/
theorem blockA_apply (c : Dev nD) (t : Fin cfg5.N) (y : S10000x128.Idx) (i : S50000x128.Idx)
    (h0 : (i 0).val = 10000 * t.val + (y 0).val) (h1 : (i 1).val = (y 1).val) :
    (iblk5 V c 0 t : Vec Ideal S10000x128 .f32) y = (V c main_v132 : S50000x128.Idx → Elt Ideal .f32) i := by
  have hi : win5_0.index t 0 = t.val ∧ win5_0.index t 1 = 0 := by
    rcases fin_N5 t with rfl | rfl | rfl | rfl | rfl <;> decide
  unfold iblk5
  rw [View.read_apply]
  show V c main_v132 _ = V c main_v132 _
  congr 1
  funext a
  apply Fin.ext
  match a with
  | ⟨0, _⟩ => show win5_0.index t 0 * 10000 + 1 * (y 0).val = (i 0).val; rw [hi.1, h0]; omega
  | ⟨1, _⟩ => show win5_0.index t 1 * 128 + 1 * (y 1).val = (i 1).val; rw [hi.2, h1]; omega

/-- The row window's block at every point is the whole row. -/
theorem blockR_apply (c : Dev nD) (t : Fin cfg5.N) (y : S1x128.Idx) :
    (iblk5 V c 1 t : Vec Ideal S1x128 .f32) y = (V c main_v133 : S1x128.Idx → Elt Ideal .f32) y := by
  have hi : win5_1.index t 0 = 0 ∧ win5_1.index t 1 = 0 := by
    rcases fin_N5 t with rfl | rfl | rfl | rfl | rfl <;> decide
  unfold iblk5
  rw [View.read_apply]
  show V c main_v133 _ = V c main_v133 _
  congr 1
  funext a
  apply Fin.ext
  match a with
  | ⟨0, _⟩ => show win5_1.index t 0 * 1 + 1 * (y 0).val = (y 0).val; rw [hi.1]; omega
  | ⟨1, _⟩ => show win5_1.index t 1 * 128 + 1 * (y 1).val = (y 1).val; rw [hi.2]; omega

/-- The result window's block at point `t` sits at rows `10000 t …` of the result array. -/
theorem embO (t : Fin cfg5.N) (p : Fin 10000) (q : Fin 128) (hp : 10000 * t.val + p.val < 50000) :
    ((cfg5.win 2).blk t).view.emb (ix2 p q) = (ix2 (⟨10000 * t.val + p.val, hp⟩ : Fin 50000) q : S50000x128.Idx) := by
  have hi : win5_2.index t 0 = t.val ∧ win5_2.index t 1 = 0 := by
    rcases fin_N5 t with rfl | rfl | rfl | rfl | rfl <;> decide
  funext a
  apply Fin.ext
  match a with
  | ⟨0, _⟩ => show win5_2.index t 0 * 10000 + 1 * p.val = 10000 * t.val + p.val; rw [hi.1]; omega
  | ⟨1, _⟩ => show win5_2.index t 1 * 128 + 1 * q.val = q.val; rw [hi.2]; omega

/-- What point `t` writes back is block `t` of the row added to every row of the array, clipped at zero. -/
theorem flushed_eq (c : Dev nD) (t : Fin cfg5.N) :
    (dat5 V c).flushed 2 t = ((cfg5.win 2).blk t).view.read (Elt Ideal) (Cert.Spec.biasReluFn (V c main_v132) (V c main_v133)) := by
  show (cfg5.win 2).cut (grid5.coords t) ((dat5 V c).after 2 t) = _
  rw [after5_2]
  unfold out5_2
  rw [View.canon_unit_zero BiasPoint.zeroOff]
  simp only [View.ld_unit_zero (S := S10000x128) BiasPoint.zeroOff, View.ld_unit_zero (S := S1x128) BiasPoint.zeroOff]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg5.N = 5 from N_5)
  have hp : 10000 * t.val + p.val < 50000 := by have := p.isLt; omega
  show k5_pay1 (iblk5 V c 1 t) (iblk5 V c 0 t) (ix2 p q) = Cert.Spec.biasReluFn (V c main_v132) (V c main_v133) (((cfg5.win 2).blk t).view.emb (ix2 p q))
  rw [embO t p q hp]
  refine (BiasPoint.pay5_apply _ _ p q).trans ?_
  refine Eq.trans ?_ (BiasPoint.biasReluFn_apply _ _ _ q).symm
  rw [blockA_apply V c t (ix2 p q) (ix2 (⟨10000 * t.val + p.val, hp⟩ : Fin 50000) q) rfl rfl, blockR_apply V c t (ix2 (0 : Fin 1) q)]

/-- An index of the result is in point `t`'s block iff each coordinate is in the block's range on its axis. -/
theorem mem_blk (t : Fin cfg5.N) (i : S50000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v134).slice (win5_2.rect t)).set ↔ _
  rw [View.set_slice_whole, Rect.mem_set_unit]
  exact Iff.rfl

/-- Row `r` of the result lies in the block of point `r / 10000`, and every point writes back. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 5 := N_5
  refine ⟨⟨(i 0).val / 10000, by rw [hN]; omega⟩, flush5_2 _, ?_⟩
  rw [mem_blk]
  have hidx : ∀ t : Fin cfg5.N, win5_2.index t 0 = t.val ∧ win5_2.index t 1 = 0 := fun t => by
    rcases fin_N5 t with rfl | rfl | rfl | rfl | rfl <;> decide
  intro a
  match a with
  | ⟨0, _⟩ =>
    show win5_2.index _ 0 * 10000 ≤ (i 0).val ∧ (i 0).val < win5_2.index _ 0 * 10000 + 10000
    rw [(hidx _).1]
    show (i 0).val / 10000 * 10000 ≤ (i 0).val ∧ (i 0).val < (i 0).val / 10000 * 10000 + 10000
    omega
  | ⟨1, _⟩ =>
    show win5_2.index _ 1 * 128 ≤ (i 1).val ∧ (i 1).val < win5_2.index _ 1 * 128 + 128
    rw [(hidx _).2]
    omega

/-- So the result array ends holding the row added to every row of the array, clipped at zero. -/
theorem arr (c : Dev nD) : (dat5 (F := Ideal) V c).arrAt 2 cfg5.N = Cert.Spec.biasReluFn (V c main_v132) (V c main_v133) :=
  (dat5 V c).arrAt_eq_of_cover 2 _ (fun t _ => flushed_eq V c t) cover

end Cert.KernelIdeal.Regions.Bias5

end
-- ==== Proof.Bias7.lean ====
/-
  The fourth bias region's result array as one function of the arrays it reads.

  The region runs over 5 grid points.  At point t its first window holds rows 10000 t … 10000 t + 9999 of the
  [50000,128] array, its second window the whole [1,128] row, and what it writes back to rows 10000 t … of the result
  is, entry by entry, array entry + row entry.  The five blocks tile the result, so the result is
  the row added to every row of the array.
-/
import proofs.«132256_j23630910063292_1_alg».proof.Proof.Gen.KernelIdeal.Frame
import proofs.«132256_j23630910063292_1_alg».proof.Proof.Spec
import proofs.«132256_j23630910063292_1_alg».proof.Proof.LibRowColOps
import proofs.«132256_j23630910063292_1_alg».proof.Proof.LibHostRowOps
import Idealize.ShloMosaic.Lib.Pipeline.Value
import Idealize.ShloMosaic.PureOps.Ideal
import Idealize.ShloMosaic.PureOps.Ideal.Laws
import Idealize.ShloMosaic.Lib.ValueIdx
import proofs.«132256_j23630910063292_1_alg».proof.Proof.BiasPoint

noncomputable section

open Idealize.ShloMosaic Idealize.ShloMosaic.TcCoe Idealize.SL.Sem
open Idealize.ShloMosaic.Pipeline (Dat)
open Idealize.ShloMosaic.ValueIdx

namespace Cert.KernelIdeal.Regions.Bias7

open Cert.KernelIdeal Cert.KernelIdeal.Gen Cert.KernelIdeal.Regions

variable [Cert.ReferenceIdeal.Facts₀]
variable (V : (c : Dev nD) → (b : Ref sig .tc) → Buf (Elt Ideal) ((c : Thread nD τ).loc b))

/-- The array window's block at point `t` is rows `10000 t …` of the array. -/
theorem blockA_apply (c : Dev nD) (t : Fin cfg7.N) (y : S10000x128.Idx) (i : S50000x128.Idx)
    (h0 : (i 0).val = 10000 * t.val + (y 0).val) (h1 : (i 1).val = (y 1).val) :
    (iblk7 V c 0 t : Vec Ideal S10000x128 .f32) y = (V c main_v177 : S50000x128.Idx → Elt Ideal .f32) i := by
  have hi : win7_0.index t 0 = t.val ∧ win7_0.index t 1 = 0 := by
    rcases fin_N7 t with rfl | rfl | rfl | rfl | rfl <;> decide
  unfold iblk7
  rw [View.read_apply]
  show V c main_v177 _ = V c main_v177 _
  congr 1
  funext a
  apply Fin.ext
  match a with
  | ⟨0, _⟩ => show win7_0.index t 0 * 10000 + 1 * (y 0).val = (i 0).val; rw [hi.1, h0]; omega
  | ⟨1, _⟩ => show win7_0.index t 1 * 128 + 1 * (y 1).val = (i 1).val; rw [hi.2, h1]; omega

/-- The row window's block at every point is the whole row. -/
theorem blockR_apply (c : Dev nD) (t : Fin cfg7.N) (y : S1x128.Idx) :
    (iblk7 V c 1 t : Vec Ideal S1x128 .f32) y = (V c main_v178 : S1x128.Idx → Elt Ideal .f32) y := by
  have hi : win7_1.index t 0 = 0 ∧ win7_1.index t 1 = 0 := by
    rcases fin_N7 t with rfl | rfl | rfl | rfl | rfl <;> decide
  unfold iblk7
  rw [View.read_apply]
  show V c main_v178 _ = V c main_v178 _
  congr 1
  funext a
  apply Fin.ext
  match a with
  | ⟨0, _⟩ => show win7_1.index t 0 * 1 + 1 * (y 0).val = (y 0).val; rw [hi.1]; omega
  | ⟨1, _⟩ => show win7_1.index t 1 * 128 + 1 * (y 1).val = (y 1).val; rw [hi.2]; omega

/-- The result window's block at point `t` sits at rows `10000 t …` of the result array. -/
theorem embO (t : Fin cfg7.N) (p : Fin 10000) (q : Fin 128) (hp : 10000 * t.val + p.val < 50000) :
    ((cfg7.win 2).blk t).view.emb (ix2 p q) = (ix2 (⟨10000 * t.val + p.val, hp⟩ : Fin 50000) q : S50000x128.Idx) := by
  have hi : win7_2.index t 0 = t.val ∧ win7_2.index t 1 = 0 := by
    rcases fin_N7 t with rfl | rfl | rfl | rfl | rfl <;> decide
  funext a
  apply Fin.ext
  match a with
  | ⟨0, _⟩ => show win7_2.index t 0 * 10000 + 1 * p.val = 10000 * t.val + p.val; rw [hi.1]; omega
  | ⟨1, _⟩ => show win7_2.index t 1 * 128 + 1 * q.val = q.val; rw [hi.2]; omega

/-- What point `t` writes back is block `t` of the row added to every row of the array. -/
theorem flushed_eq (c : Dev nD) (t : Fin cfg7.N) :
    (dat7 V c).flushed 2 t = ((cfg7.win 2).blk t).view.read (Elt Ideal) (Cert.Spec.biasFn (V c main_v177) (V c main_v178)) := by
  show (cfg7.win 2).cut (grid7.coords t) ((dat7 V c).after 2 t) = _
  rw [after7_2]
  unfold out7_2
  rw [View.canon_unit_zero BiasPoint.zeroOff]
  simp only [View.ld_unit_zero (S := S10000x128) BiasPoint.zeroOff, View.ld_unit_zero (S := S1x128) BiasPoint.zeroOff]
  funext (j : S10000x128.Idx)
  obtain ⟨p, q, rfl⟩ : ∃ (p : Fin 10000) (q : Fin 128), j = ix2 p q := ⟨j 0, j 1, eq_ix2 j⟩
  have ht : t.val < 5 := lt_of_lt_of_eq t.isLt (show cfg7.N = 5 from N_7)
  have hp : 10000 * t.val + p.val < 50000 := by have := p.isLt; omega
  show k7_pay1 (iblk7 V c 1 t) (iblk7 V c 0 t) (ix2 p q) = Cert.Spec.biasFn (V c main_v177) (V c main_v178) (((cfg7.win 2).blk t).view.emb (ix2 p q))
  rw [embO t p q hp]
  refine (BiasPoint.pay7_apply _ _ p q).trans ?_
  refine Eq.trans ?_ (BiasPoint.biasFn_apply _ _ _ q).symm
  rw [blockA_apply V c t (ix2 p q) (ix2 (⟨10000 * t.val + p.val, hp⟩ : Fin 50000) q) rfl rfl, blockR_apply V c t (ix2 (0 : Fin 1) q)]

/-- An index of the result is in point `t`'s block iff each coordinate is in the block's range on its axis. -/
theorem mem_blk (t : Fin cfg7.N) (i : S50000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v179).slice (win7_2.rect t)).set ↔ _
  rw [View.set_slice_whole, Rect.mem_set_unit]
  exact Iff.rfl

/-- Row `r` of the result lies in the block of point `r / 10000`, and every point writes back. -/
theorem cover (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 5 := N_7
  refine ⟨⟨(i 0).val / 10000, by rw [hN]; omega⟩, flush7_2 _, ?_⟩
  rw [mem_blk]
  have hidx : ∀ t : Fin cfg7.N, win7_2.index t 0 = t.val ∧ win7_2.index t 1 = 0 := fun t => by
    rcases fin_N7 t with rfl | rfl | rfl | rfl | rfl <;> decide
  intro a
  match a with
  | ⟨0, _⟩ =>
    show win7_2.index _ 0 * 10000 ≤ (i 0).val ∧ (i 0).val < win7_2.index _ 0 * 10000 + 10000
    rw [(hidx _).1]
    show (i 0).val / 10000 * 10000 ≤ (i 0).val ∧ (i 0).val < (i 0).val / 10000 * 10000 + 10000
    omega
  | ⟨1, _⟩ =>
    show win7_2.index _ 1 * 128 ≤ (i 1).val ∧ (i 1).val < win7_2.index _ 1 * 128 + 128
    rw [(hidx _).2]
    omega

/-- So the result array ends holding the row added to every row of the array. -/
theorem arr (c : Dev nD) : (dat7 (F := Ideal) V c).arrAt 2 cfg7.N = Cert.Spec.biasFn (V c main_v177) (V c main_v178) :=
  (dat7 V c).arrAt_eq_of_cover 2 _ (fun t _ => flushed_eq V c t) cover

end Cert.KernelIdeal.Regions.Bias7

end
-- ==== Proof.BiasRegions.lean ====
/-
  The four bias regions' result arrays as whole-array functions: each is the bias row added to every row of the
  region's input array, the first-layer ones clipped at zero.  One module per region proves it; here they are gathered.
-/
import proofs.«132256_j23630910063292_1_alg».proof.Proof.Gen.KernelIdeal.Frame
import proofs.«132256_j23630910063292_1_alg».proof.Proof.Spec
import proofs.«132256_j23630910063292_1_alg».proof.Proof.Bias1
import proofs.«132256_j23630910063292_1_alg».proof.Proof.Bias3
import proofs.«132256_j23630910063292_1_alg».proof.Proof.Bias5
import proofs.«132256_j23630910063292_1_alg».proof.Proof.Bias7
import Idealize.ShloMosaic.Lib.Pipeline.Value
import Idealize.ShloMosaic.PureOps.Ideal
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.KernelIdeal.Regions

open Cert.KernelIdeal Cert.KernelIdeal.Gen

variable [Cert.ReferenceIdeal.Facts₀]
variable (V : (c : Dev nD) → (b : Ref sig .tc) → Buf (Elt Ideal) ((c : Thread nD τ).loc b))

theorem arr1 (c : Dev nD) : (dat1 (F := Ideal) V c).arrAt 2 cfg1.N = Cert.Spec.biasReluFn (V c main_v42) (V c main_v43) :=
  Bias1.arr V c

theorem arr3 (c : Dev nD) : (dat3 (F := Ideal) V c).arrAt 2 cfg3.N = Cert.Spec.biasFn (V c main_v87) (V c main_v88) :=
  Bias3.arr V c

theorem arr5 (c : Dev nD) : (dat5 (F := Ideal) V c).arrAt 2 cfg5.N = Cert.Spec.biasReluFn (V c main_v132) (V c main_v133) :=
  Bias5.arr V c

theorem arr7 (c : Dev nD) : (dat7 (F := Ideal) V c).arrAt 2 cfg7.N = Cert.Spec.biasFn (V c main_v177) (V c main_v178) :=
  Bias7.arr V c

end Cert.KernelIdeal.Regions

end
-- ==== Proof.KernelLine.lean ====
/-
  The kernel program's two results as the two-layer network of its arguments.

  The program is eight pipelined regions among four stretches of host operations.  Each region reads two arrays and
  writes one; given what each region's output array ends at (a product with a weight matrix, or a bias row added,
  clipped at zero or not), a region acts on the buffer contents as one host operation, so the whole program is one
  line of operations over the launch contents.  The line falls into four chunks: layer 1 and layer 2 on the first
  graph, then layer 1 and layer 2 on the second; each chunk is a product, an aggregation along the edges, and a
  bias.  Evaluated chunk by chunk at the two result buffers, with every buffer a chunk does not write carried
  through it unchanged, the line gives the network function of the launched arguments.
-/
import proofs.«132256_j23630910063292_1_alg».proof.Proof.Gen.KernelIdeal.Frame
import proofs.«132256_j23630910063292_1_alg».proof.Proof.Spec
import proofs.«132256_j23630910063292_1_alg».proof.Proof.LibRegionOp
import proofs.«132256_j23630910063292_1_alg».proof.Proof.LibLineEval
import proofs.«132256_j23630910063292_1_alg».proof.Proof.LibRowAsBroadcast
import proofs.«132256_j23630910063292_1_alg».proof.Proof.LinearRegions
import proofs.«132256_j23630910063292_1_alg».proof.Proof.BiasRegions

noncomputable section

open Idealize.ShloMosaic Idealize.ShloMosaic.TcCoe Idealize.ShloMosaic.StableHlo Idealize.SL.Sem
open Cert.LineEval

namespace Cert.KernelIdeal.Line

open Cert.KernelIdeal Cert.KernelIdeal.Gen

variable [Cert.ReferenceIdeal.Facts₀]
/-! ## Each region as one operation

A region's two input arrays end as it found them and its output array ends at a function of the two: on the
buffer contents it acts as the one host operation that writes that function of the two inputs to the output. -/

/-- Region 0 as one operation: the first graph's features times the first layer's weights. -/
def op0 : HloOp τ sig (Elt Ideal) :=
  StableHlo.binary main_arg0 main_arg4 main_v0 (Cert.Spec.linFn : (⟨S50000x128, .f32⟩ : BufTy).Contents (Elt Ideal) → (⟨S128x128, .f32⟩ : BufTy).Contents (Elt Ideal) → (⟨S50000x128, .f32⟩ : BufTy).Contents (Elt Ideal))

theorem W1_eq (m : (ℓ : Loc nD τ sig) → Buf (Elt Ideal) ℓ) (ρ : Dev nD → PrngReg) (c : Dev nD) :
    W1 (F := Ideal) m ρ c = op0.result (W0 m ρ c) := by
  unfold W1
  refine Cert.RegionOp.withArrays_eq_result spec0 launch0.win.arr_inj c (W0 m ρ c) _ op0 2 rfl ?_ ?_
  · show (dat0 (V0 m ρ) c).arrAt 2 cfg0.N = op0.result (W0 m ρ c) (Proc.devRef .tc main_v0)
    rw [Regions.arr0]
    exact (binary_result' (τ := τ) (a := main_arg0) (b := main_arg4) (y := main_v0) _ _ _ _ (W0 m ρ c)).symm
  · intro w hw
    match w, hw with
    | 0, _ => exact ((dat0 (V0 m ρ) c).arrAt_in 0 rfl _).trans (A_eq0 (V0 m ρ) c 0)
    | 1, _ => exact ((dat0 (V0 m ρ) c).arrAt_in 1 rfl _).trans (A_eq0 (V0 m ρ) c 1)
    | 2, h => exact absurd rfl h

/-- Region 1 as one operation: the first layer's bias row added to the first graph's aggregate, clipped at zero. -/
def op1 : HloOp τ sig (Elt Ideal) :=
  StableHlo.binary main_v42 main_v43 main_v44 (Cert.Spec.biasReluFn : (⟨S50000x128, .f32⟩ : BufTy).Contents (Elt Ideal) → (⟨S1x128, .f32⟩ : BufTy).Contents (Elt Ideal) → (⟨S50000x128, .f32⟩ : BufTy).Contents (Elt Ideal))

theorem W3_eq (m : (ℓ : Loc nD τ sig) → Buf (Elt Ideal) ℓ) (ρ : Dev nD → PrngReg) (c : Dev nD) :
    W3 (F := Ideal) m ρ c = op1.result (W2 m ρ c) := by
  unfold W3
  refine Cert.RegionOp.withArrays_eq_result spec1 launch1.win.arr_inj c (W2 m ρ c) _ op1 2 rfl ?_ ?_
  · show (dat1 (V2 m ρ) c).arrAt 2 cfg1.N = op1.result (W2 m ρ c) (Proc.devRef .tc main_v44)
    rw [Regions.arr1]
    exact (binary_result' (τ := τ) (a := main_v42) (b := main_v43) (y := main_v44) _ _ _ _ (W2 m ρ c)).symm
  · intro w hw
    match w, hw with
    | 0, _ => exact ((dat1 (V2 m ρ) c).arrAt_in 0 rfl _).trans (A_eq1 (V2 m ρ) c 0)
    | 1, _ => exact ((dat1 (V2 m ρ) c).arrAt_in 1 rfl _).trans (A_eq1 (V2 m ρ) c 1)
    | 2, h => exact absurd rfl h

/-- Region 2 as one operation: the first graph's hidden features times the second layer's weights. -/
def op2 : HloOp τ sig (Elt Ideal) :=
  StableHlo.binary main_v44 main_arg6 main_v45 (Cert.Spec.linFn : (⟨S50000x128, .f32⟩ : BufTy).Contents (Elt Ideal) → (⟨S128x128, .f32⟩ : BufTy).Contents (Elt Ideal) → (⟨S50000x128, .f32⟩ : BufTy).Contents (Elt Ideal))

theorem W4_eq (m : (ℓ : Loc nD τ sig) → Buf (Elt Ideal) ℓ) (ρ : Dev nD → PrngReg) (c : Dev nD) :
    W4 (F := Ideal) m ρ c = op2.result (W3 m ρ c) := by
  unfold W4
  refine Cert.RegionOp.withArrays_eq_result spec2 launch2.win.arr_inj c (W3 m ρ c) _ op2 2 rfl ?_ ?_
  · show (dat2 (V3 m ρ) c).arrAt 2 cfg2.N = op2.result (W3 m ρ c) (Proc.devRef .tc main_v45)
    rw [Regions.arr2]
    exact (binary_result' (τ := τ) (a := main_v44) (b := main_arg6) (y := main_v45) _ _ _ _ (W3 m ρ c)).symm
  · intro w hw
    match w, hw with
    | 0, _ => exact ((dat2 (V3 m ρ) c).arrAt_in 0 rfl _).trans (A_eq2 (V3 m ρ) c 0)
    | 1, _ => exact ((dat2 (V3 m ρ) c).arrAt_in 1 rfl _).trans (A_eq2 (V3 m ρ) c 1)
    | 2, h => exact absurd rfl h

/-- Region 3 as one operation: the second layer's bias row added to the first graph's second aggregate. -/
def op3 : HloOp τ sig (Elt Ideal) :=
  StableHlo.binary main_v87 main_v88 main_v89 (Cert.Spec.biasFn : (⟨S50000x128, .f32⟩ : BufTy).Contents (Elt Ideal) → (⟨S1x128, .f32⟩ : BufTy).Contents (Elt Ideal) → (⟨S50000x128, .f32⟩ : BufTy).Contents (Elt Ideal))

theorem W6_eq (m : (ℓ : Loc nD τ sig) → Buf (Elt Ideal) ℓ) (ρ : Dev nD → PrngReg) (c : Dev nD) :
    W6 (F := Ideal) m ρ c = op3.result (W5 m ρ c) := by
  unfold W6
  refine Cert.RegionOp.withArrays_eq_result spec3 launch3.win.arr_inj c (W5 m ρ c) _ op3 2 rfl ?_ ?_
  · show (dat3 (V5 m ρ) c).arrAt 2 cfg3.N = op3.result (W5 m ρ c) (Proc.devRef .tc main_v89)
    rw [Regions.arr3]
    exact (binary_result' (τ := τ) (a := main_v87) (b := main_v88) (y := main_v89) _ _ _ _ (W5 m ρ c)).symm
  · intro w hw
    match w, hw with
    | 0, _ => exact ((dat3 (V5 m ρ) c).arrAt_in 0 rfl _).trans (A_eq3 (V5 m ρ) c 0)
    | 1, _ => exact ((dat3 (V5 m ρ) c).arrAt_in 1 rfl _).trans (A_eq3 (V5 m ρ) c 1)
    | 2, h => exact absurd rfl h

/-- Region 4 as one operation: the second graph's features times the first layer's weights. -/
def op4 : HloOp τ sig (Elt Ideal) :=
  StableHlo.binary main_arg2 main_arg4 main_v90 (Cert.Spec.linFn : (⟨S50000x128, .f32⟩ : BufTy).Contents (Elt Ideal) → (⟨S128x128, .f32⟩ : BufTy).Contents (Elt Ideal) → (⟨S50000x128, .f32⟩ : BufTy).Contents (Elt Ideal))

theorem W7_eq (m : (ℓ : Loc nD τ sig) → Buf (Elt Ideal) ℓ) (ρ : Dev nD → PrngReg) (c : Dev nD) :
    W7 (F := Ideal) m ρ c = op4.result (W6 m ρ c) := by
  unfold W7
  refine Cert.RegionOp.withArrays_eq_result spec4 launch4.win.arr_inj c (W6 m ρ c) _ op4 2 rfl ?_ ?_
  · show (dat4 (V6 m ρ) c).arrAt 2 cfg4.N = op4.result (W6 m ρ c) (Proc.devRef .tc main_v90)
    rw [Regions.arr4]
    exact (binary_result' (τ := τ) (a := main_arg2) (b := main_arg4) (y := main_v90) _ _ _ _ (W6 m ρ c)).symm
  · intro w hw
    match w, hw with
    | 0, _ => exact ((dat4 (V6 m ρ) c).arrAt_in 0 rfl _).trans (A_eq4 (V6 m ρ) c 0)
    | 1, _ => exact ((dat4 (V6 m ρ) c).arrAt_in 1 rfl _).trans (A_eq4 (V6 m ρ) c 1)
    | 2, h => exact absurd rfl h

/-- Region 5 as one operation: the first layer's bias row added to the second graph's aggregate, clipped at zero. -/
def op5 : HloOp τ sig (Elt Ideal) :=
  StableHlo.binary main_v132 main_v133 main_v134 (Cert.Spec.biasReluFn : (⟨S50000x128, .f32⟩ : BufTy).Contents (Elt Ideal) → (⟨S1x128, .f32⟩ : BufTy).Contents (Elt Ideal) → (⟨S50000x128, .f32⟩ : BufTy).Contents (Elt Ideal))

theorem W9_eq (m : (ℓ : Loc nD τ sig) → Buf (Elt Ideal) ℓ) (ρ : Dev nD → PrngReg) (c : Dev nD) :
    W9 (F := Ideal) m ρ c = op5.result (W8 m ρ c) := by
  unfold W9
  refine Cert.RegionOp.withArrays_eq_result spec5 launch5.win.arr_inj c (W8 m ρ c) _ op5 2 rfl ?_ ?_
  · show (dat5 (V8 m ρ) c).arrAt 2 cfg5.N = op5.result (W8 m ρ c) (Proc.devRef .tc main_v134)
    rw [Regions.arr5]
    exact (binary_result' (τ := τ) (a := main_v132) (b := main_v133) (y := main_v134) _ _ _ _ (W8 m ρ c)).symm
  · intro w hw
    match w, hw with
    | 0, _ => exact ((dat5 (V8 m ρ) c).arrAt_in 0 rfl _).trans (A_eq5 (V8 m ρ) c 0)
    | 1, _ => exact ((dat5 (V8 m ρ) c).arrAt_in 1 rfl _).trans (A_eq5 (V8 m ρ) c 1)
    | 2, h => exact absurd rfl h

/-- Region 6 as one operation: the second graph's hidden features times the second layer's weights. -/
def op6 : HloOp τ sig (Elt Ideal) :=
  StableHlo.binary main_v134 main_arg6 main_v135 (Cert.Spec.linFn : (⟨S50000x128, .f32⟩ : BufTy).Contents (Elt Ideal) → (⟨S128x128, .f32⟩ : BufTy).Contents (Elt Ideal) → (⟨S50000x128, .f32⟩ : BufTy).Contents (Elt Ideal))

theorem W10_eq (m : (ℓ : Loc nD τ sig) → Buf (Elt Ideal) ℓ) (ρ : Dev nD → PrngReg) (c : Dev nD) :
    W10 (F := Ideal) m ρ c = op6.result (W9 m ρ c) := by
  unfold W10
  refine Cert.RegionOp.withArrays_eq_result spec6 launch6.win.arr_inj c (W9 m ρ c) _ op6 2 rfl ?_ ?_
  · show (dat6 (V9 m ρ) c).arrAt 2 cfg6.N = op6.result (W9 m ρ c) (Proc.devRef .tc main_v135)
    rw [Regions.arr6]
    exact (binary_result' (τ := τ) (a := main_v134) (b := main_arg6) (y := main_v135) _ _ _ _ (W9 m ρ c)).symm
  · intro w hw
    match w, hw with
    | 0, _ => exact ((dat6 (V9 m ρ) c).arrAt_in 0 rfl _).trans (A_eq6 (V9 m ρ) c 0)
    | 1, _ => exact ((dat6 (V9 m ρ) c).arrAt_in 1 rfl _).trans (A_eq6 (V9 m ρ) c 1)
    | 2, h => exact absurd rfl h

/-- Region 7 as one operation: the second layer's bias row added to the second graph's second aggregate. -/
def op7 : HloOp τ sig (Elt Ideal) :=
  StableHlo.binary main_v177 main_v178 main_v179 (Cert.Spec.biasFn : (⟨S50000x128, .f32⟩ : BufTy).Contents (Elt Ideal) → (⟨S1x128, .f32⟩ : BufTy).Contents (Elt Ideal) → (⟨S50000x128, .f32⟩ : BufTy).Contents (Elt Ideal))

theorem W12_eq (m : (ℓ : Loc nD τ sig) → Buf (Elt Ideal) ℓ) (ρ : Dev nD → PrngReg) (c : Dev nD) :
    W12 (F := Ideal) m ρ c = op7.result (W11 m ρ c) := by
  unfold W12
  refine Cert.RegionOp.withArrays_eq_result spec7 launch7.win.arr_inj c (W11 m ρ c) _ op7 2 rfl ?_ ?_
  · show (dat7 (V11 m ρ) c).arrAt 2 cfg7.N = op7.result (W11 m ρ c) (Proc.devRef .tc main_v179)
    rw [Regions.arr7]
    exact (binary_result' (τ := τ) (a := main_v177) (b := main_v178) (y := main_v179) _ _ _ _ (W11 m ρ c)).symm
  · intro w hw
    match w, hw with
    | 0, _ => exact ((dat7 (V11 m ρ) c).arrAt_in 0 rfl _).trans (A_eq7 (V11 m ρ) c 0)
    | 1, _ => exact ((dat7 (V11 m ρ) c).arrAt_in 1 rfl _).trans (A_eq7 (V11 m ρ) c 1)
    | 2, h => exact absurd rfl h

/-! ## The host stretches

Between two regions the program aggregates: it gathers the rows of the region's output along the edges, scales them
by the edge weights it recomputes from the edge array, and sums them at the destinations; and it lays the next bias
vector out as a row.  Over arbitrary starting contents, the stretch leaves the aggregate of what the features' buffer
held in one buffer, and the bias as a row in another. -/

theorem host1_agg (V : Valuation τ sig (Elt Ideal)) :
    StableHlo.after (hostOps1 (F := Ideal)) V (Proc.devRef .tc main_v42)
      = Cert.Spec.aggregate (V (Proc.devRef .tc main_v0)) (V (Proc.devRef .tc main_arg1)) := by
  eval_line
  rfl

theorem host1_row (V : Valuation τ sig (Elt Ideal)) :
    StableHlo.after (hostOps1 (F := Ideal)) V (Proc.devRef .tc main_v43) = Cert.Spec.rowOf (V (Proc.devRef .tc main_arg5)) := by
  eval_line
  exact Cert.RowAsBroadcast.row_eq (n := 128) (V (Proc.devRef .tc main_arg5)) _ _

theorem host3_agg (V : Valuation τ sig (Elt Ideal)) :
    StableHlo.after (hostOps3 (F := Ideal)) V (Proc.devRef .tc main_v87)
      = Cert.Spec.aggregate (V (Proc.devRef .tc main_v45)) (V (Proc.devRef .tc main_arg1)) := by
  eval_line
  rfl

theorem host3_row (V : Valuation τ sig (Elt Ideal)) :
    StableHlo.after (hostOps3 (F := Ideal)) V (Proc.devRef .tc main_v88) = Cert.Spec.rowOf (V (Proc.devRef .tc main_arg7)) := by
  eval_line
  exact Cert.RowAsBroadcast.row_eq (n := 128) (V (Proc.devRef .tc main_arg7)) _ _

theorem host5_agg (V : Valuation τ sig (Elt Ideal)) :
    StableHlo.after (hostOps5 (F := Ideal)) V (Proc.devRef .tc main_v132)
      = Cert.Spec.aggregate (V (Proc.devRef .tc main_v90)) (V (Proc.devRef .tc main_arg3)) := by
  eval_line
  rfl

theorem host5_row (V : Valuation τ sig (Elt Ideal)) :
    StableHlo.after (hostOps5 (F := Ideal)) V (Proc.devRef .tc main_v133) = Cert.Spec.rowOf (V (Proc.devRef .tc main_arg5)) := by
  eval_line
  exact Cert.RowAsBroadcast.row_eq (n := 128) (V (Proc.devRef .tc main_arg5)) _ _

theorem host7_agg (V : Valuation τ sig (Elt Ideal)) :
    StableHlo.after (hostOps7 (F := Ideal)) V (Proc.devRef .tc main_v177)
      = Cert.Spec.aggregate (V (Proc.devRef .tc main_v135)) (V (Proc.devRef .tc main_arg3)) := by
  eval_line
  rfl

theorem host7_row (V : Valuation τ sig (Elt Ideal)) :
    StableHlo.after (hostOps7 (F := Ideal)) V (Proc.devRef .tc main_v178) = Cert.Spec.rowOf (V (Proc.devRef .tc main_arg7)) := by
  eval_line
  exact Cert.RowAsBroadcast.row_eq (n := 128) (V (Proc.devRef .tc main_arg7)) _ _

/-! ## One layer on one graph

A layer on a graph is a region (the product with the weights), a host stretch (the aggregation, and the bias as a
row) and a second region (the bias added, clipped at zero in the first layer).  Over arbitrary starting contents it
leaves the layer's function of the features, edges, weights and bias in its result buffer, and it leaves alone every
buffer none of its operations writes. -/

/-- The buffer contents after layer chunk 1, from contents `V`. -/
def chunk1 (V : Valuation τ sig (Elt Ideal)) : Valuation τ sig (Elt Ideal) :=
  op1.result (StableHlo.after hostOps1 (op0.result V))

theorem W3_chunk (m : (ℓ : Loc nD τ sig) → Buf (Elt Ideal) ℓ) (ρ : Dev nD → PrngReg) (c : Dev nD) :
    W3 (F := Ideal) m ρ c = chunk1 (W0 m ρ c) := by
  rw [W3_eq]
  show op1.result (StableHlo.after hostOps1 (W1 m ρ c)) = _
  rw [W1_eq]
  rfl

theorem chunk1_out (V : Valuation τ sig (Elt Ideal)) :
    chunk1 V (Proc.devRef .tc main_v44)
      = Cert.Spec.biasReluFn (Cert.Spec.aggregate (Cert.Spec.linFn (V (Proc.devRef .tc main_arg0)) (V (Proc.devRef .tc main_arg4))) (V (Proc.devRef .tc main_arg1))) (Cert.Spec.rowOf (V (Proc.devRef .tc main_arg5))) := by
  unfold chunk1 op1
  rw [binary_result', host1_agg, host1_row]
  simp (disch := decide) only [op0, binary_result', binary_result_ne']

/-- The buffer contents after layer chunk 2, from contents `V`. -/
def chunk2 (V : Valuation τ sig (Elt Ideal)) : Valuation τ sig (Elt Ideal) :=
  op3.result (StableHlo.after hostOps3 (op2.result V))

theorem W6_chunk (m : (ℓ : Loc nD τ sig) → Buf (Elt Ideal) ℓ) (ρ : Dev nD → PrngReg) (c : Dev nD) :
    W6 (F := Ideal) m ρ c = chunk2 (W3 m ρ c) := by
  rw [W6_eq]
  show op3.result (StableHlo.after hostOps3 (W4 m ρ c)) = _
  rw [W4_eq]
  rfl

theorem chunk2_out (V : Valuation τ sig (Elt Ideal)) :
    chunk2 V (Proc.devRef .tc main_v89)
      = Cert.Spec.biasFn (Cert.Spec.aggregate (Cert.Spec.linFn (V (Proc.devRef .tc main_v44)) (V (Proc.devRef .tc main_arg6))) (V (Proc.devRef .tc main_arg1))) (Cert.Spec.rowOf (V (Proc.devRef .tc main_arg7))) := by
  unfold chunk2 op3
  rw [binary_result', host3_agg, host3_row]
  simp (disch := decide) only [op2, binary_result', binary_result_ne']

/-- The buffer contents after layer chunk 3, from contents `V`. -/
def chunk3 (V : Valuation τ sig (Elt Ideal)) : Valuation τ sig (Elt Ideal) :=
  op5.result (StableHlo.after hostOps5 (op4.result V))

theorem W9_chunk (m : (ℓ : Loc nD τ sig) → Buf (Elt Ideal) ℓ) (ρ : Dev nD → PrngReg) (c : Dev nD) :
    W9 (F := Ideal) m ρ c = chunk3 (W6 m ρ c) := by
  rw [W9_eq]
  show op5.result (StableHlo.after hostOps5 (W7 m ρ c)) = _
  rw [W7_eq]
  rfl

theorem chunk3_out (V : Valuation τ sig (Elt Ideal)) :
    chunk3 V (Proc.devRef .tc main_v134)
      = Cert.Spec.biasReluFn (Cert.Spec.aggregate (Cert.Spec.linFn (V (Proc.devRef .tc main_arg2)) (V (Proc.devRef .tc main_arg4))) (V (Proc.devRef .tc main_arg3))) (Cert.Spec.rowOf (V (Proc.devRef .tc main_arg5))) := by
  unfold chunk3 op5
  rw [binary_result', host5_agg, host5_row]
  simp (disch := decide) only [op4, binary_result', binary_result_ne']

/-- The buffer contents after layer chunk 4, from contents `V`. -/
def chunk4 (V : Valuation τ sig (Elt Ideal)) : Valuation τ sig (Elt Ideal) :=
  op7.result (StableHlo.after hostOps7 (op6.result V))

theorem W12_chunk (m : (ℓ : Loc nD τ sig) → Buf (Elt Ideal) ℓ) (ρ : Dev nD → PrngReg) (c : Dev nD) :
    W12 (F := Ideal) m ρ c = chunk4 (W9 m ρ c) := by
  rw [W12_eq]
  show op7.result (StableHlo.after hostOps7 (W10 m ρ c)) = _
  rw [W10_eq]
  rfl

theorem chunk4_out (V : Valuation τ sig (Elt Ideal)) :
    chunk4 V (Proc.devRef .tc main_v179)
      = Cert.Spec.biasFn (Cert.Spec.aggregate (Cert.Spec.linFn (V (Proc.devRef .tc main_v134)) (V (Proc.devRef .tc main_arg6))) (V (Proc.devRef .tc main_arg3))) (Cert.Spec.rowOf (V (Proc.devRef .tc main_arg7))) := by
  unfold chunk4 op7
  rw [binary_result', host7_agg, host7_row]
  simp (disch := decide) only [op6, binary_result', binary_result_ne']

/-- A buffer that no operation of a chunk writes holds after it what it held before. -/
macro "keep_line" : tactic =>
  `(tactic| (simp only [chunk1, chunk2, chunk3, chunk4, op0, op1, op2, op3, op4, op5, op6, op7]; eval_line))

theorem chunk1_keep_arg1 (V : Valuation τ sig (Elt Ideal)) : chunk1 V (Proc.devRef .tc main_arg1) = V (Proc.devRef .tc main_arg1) := by keep_line
theorem chunk1_keep_arg2 (V : Valuation τ sig (Elt Ideal)) : chunk1 V (Proc.devRef .tc main_arg2) = V (Proc.devRef .tc main_arg2) := by keep_line
theorem chunk1_keep_arg3 (V : Valuation τ sig (Elt Ideal)) : chunk1 V (Proc.devRef .tc main_arg3) = V (Proc.devRef .tc main_arg3) := by keep_line
theorem chunk1_keep_arg4 (V : Valuation τ sig (Elt Ideal)) : chunk1 V (Proc.devRef .tc main_arg4) = V (Proc.devRef .tc main_arg4) := by keep_line
theorem chunk1_keep_arg5 (V : Valuation τ sig (Elt Ideal)) : chunk1 V (Proc.devRef .tc main_arg5) = V (Proc.devRef .tc main_arg5) := by keep_line
theorem chunk1_keep_arg6 (V : Valuation τ sig (Elt Ideal)) : chunk1 V (Proc.devRef .tc main_arg6) = V (Proc.devRef .tc main_arg6) := by keep_line
theorem chunk1_keep_arg7 (V : Valuation τ sig (Elt Ideal)) : chunk1 V (Proc.devRef .tc main_arg7) = V (Proc.devRef .tc main_arg7) := by keep_line
theorem chunk2_keep_arg2 (V : Valuation τ sig (Elt Ideal)) : chunk2 V (Proc.devRef .tc main_arg2) = V (Proc.devRef .tc main_arg2) := by keep_line
theorem chunk2_keep_arg3 (V : Valuation τ sig (Elt Ideal)) : chunk2 V (Proc.devRef .tc main_arg3) = V (Proc.devRef .tc main_arg3) := by keep_line
theorem chunk2_keep_arg4 (V : Valuation τ sig (Elt Ideal)) : chunk2 V (Proc.devRef .tc main_arg4) = V (Proc.devRef .tc main_arg4) := by keep_line
theorem chunk2_keep_arg5 (V : Valuation τ sig (Elt Ideal)) : chunk2 V (Proc.devRef .tc main_arg5) = V (Proc.devRef .tc main_arg5) := by keep_line
theorem chunk2_keep_arg6 (V : Valuation τ sig (Elt Ideal)) : chunk2 V (Proc.devRef .tc main_arg6) = V (Proc.devRef .tc main_arg6) := by keep_line
theorem chunk2_keep_arg7 (V : Valuation τ sig (Elt Ideal)) : chunk2 V (Proc.devRef .tc main_arg7) = V (Proc.devRef .tc main_arg7) := by keep_line
theorem chunk3_keep_arg3 (V : Valuation τ sig (Elt Ideal)) : chunk3 V (Proc.devRef .tc main_arg3) = V (Proc.devRef .tc main_arg3) := by keep_line
theorem chunk3_keep_arg6 (V : Valuation τ sig (Elt Ideal)) : chunk3 V (Proc.devRef .tc main_arg6) = V (Proc.devRef .tc main_arg6) := by keep_line
theorem chunk3_keep_arg7 (V : Valuation τ sig (Elt Ideal)) : chunk3 V (Proc.devRef .tc main_arg7) = V (Proc.devRef .tc main_arg7) := by keep_line
theorem chunk3_keep_v89 (V : Valuation τ sig (Elt Ideal)) : chunk3 V (Proc.devRef .tc main_v89) = V (Proc.devRef .tc main_v89) := by keep_line
theorem chunk4_keep_v89 (V : Valuation τ sig (Elt Ideal)) : chunk4 V (Proc.devRef .tc main_v89) = V (Proc.devRef .tc main_v89) := by keep_line

/-! ## The program's two results

The fold of the buffer contents through the program is the four layer chunks applied in turn to the launch contents.
The first graph's result is written by the second chunk and not touched after; the second graph's by the fourth.
Reading back through the chunks, every argument is still what was launched. -/

theorem W12_fold (m : (ℓ : Loc nD τ sig) → Buf (Elt Ideal) ℓ) (ρ : Dev nD → PrngReg) (c : Dev nD) :
    W12 (F := Ideal) m ρ c = chunk4 (chunk3 (chunk2 (chunk1 (W0 m ρ c)))) := by
  rw [W12_chunk, W9_chunk, W6_chunk, W3_chunk]

theorem W12_v89 (m : (ℓ : Loc nD τ sig) → Buf (Elt Ideal) ℓ) (ρ : Dev nD → PrngReg) (c : Dev nD) :
    W12 (F := Ideal) m ρ c (Proc.devRef .tc main_v89)
      = Cert.Spec.net (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  rw [W12_fold, chunk4_keep_v89, chunk3_keep_v89, chunk2_out, chunk1_out, chunk1_keep_arg1, chunk1_keep_arg6, chunk1_keep_arg7]
  rfl

theorem W12_v179 (m : (ℓ : Loc nD τ sig) → Buf (Elt Ideal) ℓ) (ρ : Dev nD → PrngReg) (c : Dev nD) :
    W12 (F := Ideal) m ρ c (Proc.devRef .tc main_v179)
      = Cert.Spec.net (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W12_fold, chunk4_out, chunk3_out, chunk3_keep_arg3, chunk3_keep_arg6, chunk3_keep_arg7,
    chunk2_keep_arg2, chunk2_keep_arg3, chunk2_keep_arg4, chunk2_keep_arg5, chunk2_keep_arg6, chunk2_keep_arg7,
    chunk1_keep_arg2, chunk1_keep_arg3, chunk1_keep_arg4, chunk1_keep_arg5, chunk1_keep_arg6, chunk1_keep_arg7]
  rfl

end Cert.KernelIdeal.Line

end
-- ==== Proof.RefNet.lean ====
/-
  The reference program's two results, as the two-layer graph convolution of its arguments.

  The reference computes each result by one long chain of host operations; the chain is, operation for operation,
  the network of `Cert.Spec.net` applied to that graph's features and edges and to the shared weights and biases.
  Both sides are the same term once the names of the layers are opened, so each equation holds by unfolding.
-/
import proofs.«132256_j23630910063292_1_alg».proof.Proof.Gen.ReferenceIdeal.Run
import proofs.«132256_j23630910063292_1_alg».proof.Proof.Spec
import Idealize.ShloMosaic.PureOps.Ideal

noncomputable section

namespace Cert.ReferenceIdeal.RefNet

open Idealize.ShloMosaic Idealize.ShloMosaic.TcCoe Idealize.SL.Sem
open Cert.ReferenceIdeal Cert.ReferenceIdeal.Gen Cert.ReferenceIdeal.Value

variable [Cert.ReferenceIdeal.Facts₀]

set_option maxRecDepth 8192 in
/-- The first result is the network on the first graph (features `main_arg0`, edges `main_arg1`). -/
theorem out0_eq (m : (ℓ : Loc nD τ sig) → Buf (Elt Ideal) ℓ) (c : Dev nD) :
    res_main_v92 (F := Ideal) m c
      = Cert.Spec.net (m ((c.tc : Thread nD τ).loc main_arg0)) (m ((c.tc : Thread nD τ).loc main_arg1))
          (m ((c.tc : Thread nD τ).loc main_arg4)) (m ((c.tc : Thread nD τ).loc main_arg5))
          (m ((c.tc : Thread nD τ).loc main_arg6)) (m ((c.tc : Thread nD τ).loc main_arg7)) := by
  unfold res_main_v92 Cert.Spec.net Cert.Spec.biasFn Cert.Spec.biasReluFn Cert.Spec.rowOf Cert.Spec.linFn
    Cert.Spec.aggregate Cert.Spec.edgeWeight Cert.Spec.invSqrtDeg Cert.Spec.wrapped Cert.Spec.srcEnds Cert.Spec.dstEnds
  rfl

set_option maxRecDepth 8192 in
/-- The second result is the network on the second graph (features `main_arg2`, edges `main_arg3`). -/
theorem out1_eq (m : (ℓ : Loc nD τ sig) → Buf (Elt Ideal) ℓ) (c : Dev nD) :
    res_main_v185 (F := Ideal) m c
      = Cert.Spec.net (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold res_main_v185 Cert.Spec.net Cert.Spec.biasFn Cert.Spec.biasReluFn Cert.Spec.rowOf Cert.Spec.linFn
    Cert.Spec.aggregate Cert.Spec.edgeWeight Cert.Spec.invSqrtDeg Cert.Spec.wrapped Cert.Spec.srcEnds Cert.Spec.dstEnds
  rfl

end Cert.ReferenceIdeal.RefNet

end
-- ==== Proof.lean ====
/-
  The certificate's claims, assembled.

  The kernel program computes a two-layer graph convolution on two graphs: each layer multiplies the node features by
  a weight matrix in row blocks, aggregates along the edges with host operations, and adds a bias row (the first layer
  then clips at zero) in row blocks again.  Read as one line of operations — each row-block region acting as the one
  host operation that computes the whole array (the product of the whole arrays; the bias row added to every row) —
  the program leaves in its two result buffers the function `Cert.Spec.net` of its arguments.  The reference's two
  results are the same function of its arguments, term for term.  On the extended reals nothing more is needed: the
  two sides apply the same operations in the same order, a block product has the entries of the whole product, and
  narrowing a float format is the identity, so no law of arithmetic and no finiteness of the inputs is used.
  The three frame claims are the generated frames (the reference's is its generated run with the results dropped), and
  the idealization rewrote no operation, so that claim is trivial.
-/
import proofs.«132256_j23630910063292_1_alg».proof.Defs
import proofs.«132256_j23630910063292_1_alg».proof.Proof.Gen.Kernel
import proofs.«132256_j23630910063292_1_alg».proof.Proof.Gen.Kernel.Frame
import proofs.«132256_j23630910063292_1_alg».proof.Proof.Gen.KernelIdeal
import proofs.«132256_j23630910063292_1_alg».proof.Proof.Gen.KernelIdeal.Frame
import proofs.«132256_j23630910063292_1_alg».proof.Proof.Gen.ReferenceIdeal
import proofs.«132256_j23630910063292_1_alg».proof.Proof.Gen.ReferenceIdeal.Run
import proofs.«132256_j23630910063292_1_alg».proof.Proof.Gen.Pre_finite_inputs
import proofs.«132256_j23630910063292_1_alg».proof.Proof.Spec
import proofs.«132256_j23630910063292_1_alg».proof.Proof.KernelRun
import proofs.«132256_j23630910063292_1_alg».proof.Proof.KernelLine
import proofs.«132256_j23630910063292_1_alg».proof.Proof.RefNet
import Idealize.ShloMosaic.PureOps.Ideal
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each result at the two-layer network of the
    arguments: the kernel program's fold of regions and host operations, and the reference's composed term. -/
theorem algebraic : Cert.algebraic_KernelIdeal_ReferenceIdeal := by
  intro m ρ m' ρ' _ hagree
  refine ⟨fun c => Cert.KernelIdeal.Gen.W12 (F := Ideal) m ρ c (Proc.devRef .tc Cert.KernelIdeal.main_v89),
    fun c => Cert.KernelIdeal.Gen.W12 (F := Ideal) m ρ c (Proc.devRef .tc Cert.KernelIdeal.main_v179),
    Cert.KernelIdeal.Run.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefNet.out0_eq]
    obtain ⟨h0, h1, h2, h3, h4, h5, h6, h7⟩ := hagree c
    rw [h0, h1, h4, h5, h6, h7]
    exact (Cert.KernelIdeal.Line.W12_v89 m ρ c).symm
  · rw [Cert.ReferenceIdeal.RefNet.out1_eq]
    obtain ⟨h0, h1, h2, h3, h4, h5, h6, h7⟩ := hagree c
    rw [h2, h3, h4, h5, h6, h7]
    exact (Cert.KernelIdeal.Line.W12_v179 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
